-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x128 : Shape := ⟨2, ![16384, 128]⟩
abbrev S256x128 : Shape := ⟨2, ![256, 128]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S256x128 : S_.BroadcastsInDim S256x128 (![] : Fin 0 → Fin S256x128.rank)
  reducesTo_S256x128_S_d0_1 : S256x128.ReducesTo [0, 1] S_

variable [Facts]

def fn_part1 {F : FTy → Type} [FloatOps F] (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  main_v18

def fn {F : FTy → Type} [FloatOps F] (main_arg0 : FVec F S16384x1024 .f32) (main_arg1 : FVec F S16384x128 .f32) (main_arg2 : FVec F S16384x1024 .f32) (main_arg3 : FVec F S256x128 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_v13 main_v16
-- ==== Kernel.lean ====
abbrev S16384x1024 : Shape := ⟨2, ![16384, 1024]⟩
abbrev S16384x128 : Shape := ⟨2, ![16384, 128]⟩
abbrev S256x128 : Shape := ⟨2, ![256, 128]⟩
abbrev S2x1x128 : Shape := ⟨3, ![2, 1, 128]⟩
abbrev S2048x1024 : Shape := ⟨2, ![2048, 1024]⟩
abbrev S2048x128 : Shape := ⟨2, ![2048, 128]⟩
abbrev S1x1x128 : Shape := ⟨3, ![1, 1, 128]⟩
abbrev S1x1 : Shape := ⟨2, ![1, 1]⟩
abbrev S1x256 : Shape := ⟨2, ![1, 256]⟩
abbrev S256 : Shape := ⟨1, ![256]⟩
abbrev S256x1 : Shape := ⟨2, ![256, 1]⟩
abbrev S1x2048x1024 : Shape := ⟨3, ![1, 2048, 1024]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x256 : Shape := ⟨2, ![2048, 256]⟩
abbrev S1x2048x128 : Shape := ⟨3, ![1, 2048, 128]⟩
abbrev S2x1x1 : Shape := ⟨3, ![2, 1, 1]⟩
abbrev S2 : Shape := ⟨1, ![2]⟩
abbrev S_ : Shape := ⟨0, ![]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S256x128, .f32⟩
  | .hbm, ⟨4, _⟩ => ⟨S2x1x128, .f32⟩
  | .hbm, ⟨5, _⟩ => ⟨S2x1x128, .f32⟩
  | .hbm, ⟨6, _⟩ => ⟨S2x1x1, .f32⟩
  | .hbm, ⟨7, _⟩ => ⟨S2, .f32⟩
  | .hbm, ⟨8, _⟩ => ⟨S_, .f32⟩
  | .hbm, ⟨9, _⟩ => ⟨S_, .f32⟩
  | .hbm, ⟨10, _⟩ => ⟨S2x1x1, .f32⟩
  | .hbm, ⟨11, _⟩ => ⟨S2, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1, .f32⟩
  | .local _ .vmem, ⟨12, _⟩ => ⟨S1x1, .f32⟩
  | .local _ .vmem, ⟨13, _⟩ => ⟨S1x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x128_S256x128_0_0 : ∀ a, (![0, 0] : Fin 2 → Nat) a + S256x128.size a ≤ S256x128.size a
  h_S256x128 : 0 < S256x128.numel
  reduces_S256x128_S256 : S256x128.Reduces [1] S256
  shapeCasts_S256_S256x1 : S256.ShapeCasts S256x1
  shapeCasts_S256x1_S1x256 : S256x1.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x1024_S2048x1024_0_0 : ∀ a, (![0, 0] : Fin 2 → Nat) a + S2048x1024.size a ≤ S2048x1024.size a
  h_S2048x1024 : 0 < S2048x1024.numel
  shapeCasts_S2048x1024_S1x2048x1024 : S2048x1024.ShapeCasts S1x2048x1024
  reduces_S1x2048x1024_S1 : S1x2048x1024.Reduces [1, 2] S1
  shapeCasts_S1_S1x1x1 : S1.ShapeCasts S1x1x1
  inpos_S1x1x1_p0_0_0 : ∀ a, (![0, 0, 0] : Fin 3 → Nat) a < S1x1x1.size a
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x256 : S2048x1.Broadcasts S2048x256
  broadcasts_S1x256_S2048x256 : S1x256.Broadcasts S2048x256
  reduces_S2048x256_S2048 : S2048x256.Reduces [1] S2048
  shapeCasts_S2048x128_S1x2048x128 : S2048x128.ShapeCasts S1x2048x128
  reduces_S1x2048x128_S1 : S1x2048x128.Reduces [1, 2] S1
  inpos_S1x1_p0_0 : ∀ a, (![0, 0] : Fin 2 → Nat) a < S1x1.size a
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  dot_S2048x128_S256x128_S2048x256_1_1_0_0_n_n_wf : DotDims.WF S2048x128 S256x128 S2048x256 [1] [1] [0] [0] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x1024 : Shape := ⟨2, ![16384, 1024]⟩
abbrev S16384x128 : Shape := ⟨2, ![16384, 128]⟩
abbrev S256x128 : Shape := ⟨2, ![256, 128]⟩
abbrev S_ : Shape := ⟨0, ![]⟩
abbrev S16384 : Shape := ⟨1, ![16384]⟩
abbrev S16384x1 : Shape := ⟨2, ![16384, 1]⟩
abbrev S256 : Shape := ⟨1, ![256]⟩
abbrev S1x256 : Shape := ⟨2, ![1, 256]⟩
abbrev S16384x256 : Shape := ⟨2, ![16384, 256]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S16384x1024, .f32⟩
  | .hbm, ⟨3, _⟩ => ⟨S256x128, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x128, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S256x128, .f32⟩
  | .hbm, ⟨15, _⟩ => ⟨S_, .f32⟩
  | .hbm, ⟨16, _⟩ => ⟨S256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S_, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x256, .f32⟩
  | .hbm, ⟨41, _⟩ => ⟨S16384x256, .f32⟩
  | .hbm, ⟨42, _⟩ => ⟨S16384x128, .f32⟩
  | .hbm, ⟨43, _⟩ => ⟨S16384x128, .f32⟩
  | .hbm, ⟨44, _⟩ => ⟨S16384x128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_cst_10 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  reducesTo_S16384x1024_S_d0_1 : S16384x1024.ReducesTo [0, 1] S_
  h_S_ : 0 < S_.numel
  reducesTo_S16384x128_S16384_d1 : S16384x128.ReducesTo [1] S16384
  bcast_S16384_S16384x1_0 : S16384.BroadcastsInDim S16384x1 (![0] : Fin 1 → Fin S16384x1.rank)
  reducesTo_S256x128_S256_d1 : S256x128.ReducesTo [1] S256
  bcast_S256_S1x256_1 : S256.BroadcastsInDim S1x256 (![1] : Fin 1 → Fin S1x256.rank)
  bcast_S16384x1_S16384x256_0_1 : S16384x1.BroadcastsInDim S16384x256 (![0, 1] : Fin 2 → Fin S16384x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  reducesTo_S16384x256_S16384_d1 : S16384x256.ReducesTo [1] S16384
  bcast_S_S16384x1 : S_.BroadcastsInDim S16384x1 (![] : Fin 0 → Fin S16384x1.rank)
  reducesTo_S16384x128_S_d0_1 : S16384x128.ReducesTo [0, 1] S_
  dot_S16384x128_S256x128_S16384x256_1_1_0_0_n_n_wf : DotDims.WF S16384x128 S256x128 S16384x256 [1] [1] [0] [0] [] []
  dot_S16384x256_S256x128_S16384x128_1_0_0_1_n_n_wf : DotDims.WF S16384x256 S256x128 S16384x128 [1] [0] [0] [1] [] []

variable [Facts₀]

def dot_S16384x128_S256x128_S16384x256_1_1_0_0_n_n : DotDims S16384x128 S256x128 S16384x256 where
  lhsContracting := [1]
  rhsContracting := [1]
  lhsNonContracting := [0]
  rhsNonContracting := [0]
  lhsBatch := []
  rhsBatch := []
  wf := dot_S16384x128_S256x128_S16384x256_1_1_0_0_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.Spec.lean ====
/-
  The loss both programs compute, as one extended real.

  For N = 16384 samples with inputs x, a (N x 1024), latent codes h (N x 128) and 256 cluster centres R (256 x 128):

    loss = ( sum over (n, d) of (x(n,d) - a(n,d))^2 ) / 2^24
         + 1 * ( sum over (n, q) of (h(n,q) - sum_k s(n,k) R(k,q))^2 ) / 2^21

  where, for one sample with latent row v = h(n, .),
    dist(k) = sqrt( max( |v|^2 + |R(k,.)|^2 - 2 <v, R(k,.)>, 0 ) ),   w(k) = exp( -1 * dist(k) ),
    s(k)    = w(k) / ( sum_k' w(k') + eps ).
  The residual of a sample depends on that sample's row of h and on all of R, and on nothing else: this is what lets the
  rows be processed tile by tile. The float literals 2, -1, eps, 2^24, 2^21 and 1 are kept as their binary words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The distance from a latent row `v` to centre `k`, through the expansion |v|^2 + |R_k|^2 - 2 <v, R_k>, clamped at zero. -/
def dist (v : Fin 128 → EReal) (R : Fin 256 → Fin 128 → EReal) (k : Fin 256) : EReal :=
  Ideal.sqrt (max ((∑ j, v j * v j) + (∑ j, R k j * R k j)
    - Ideal.ofBits .f32 0x40000000#32 * ∑ j, v j * R k j) 0)

/-- The unnormalised soft-assignment weight exp(-dist). -/
def weight (v : Fin 128 → EReal) (R : Fin 256 → Fin 128 → EReal) (k : Fin 256) : EReal :=
  Ideal.exp (Ideal.ofBits .f32 0xBF800000#32 * dist v R k)

/-- The soft assignment: the weight over the sum of the weights plus eps. -/
def soft (v : Fin 128 → EReal) (R : Fin 256 → Fin 128 → EReal) (k : Fin 256) : EReal :=
  Ideal.div (weight v R k) ((∑ k', weight v R k') + Ideal.ofBits .f32 0x322BCC77#32)

/-- The squared residual of a latent row against its soft-assigned centre, at latent coordinate `q`. -/
def resid (v : Fin 128 → EReal) (R : Fin 256 → Fin 128 → EReal) (q : Fin 128) : EReal :=
  (v q - ∑ k, soft v R k * R k q) * (v q - ∑ k, soft v R k * R k q)

/-- Row `n` of an array with 128 columns. -/
abbrev rowOf {M : ℕ} (h : (⟨2, ![M, 128]⟩ : Shape).Idx → EReal) (n : Fin M) : Fin 128 → EReal := fun d => h (ix2 n d)

/-- The centres as a function of (centre, coordinate). -/
abbrev centres (R : (⟨2, ![256, 128]⟩ : Shape).Idx → EReal) : Fin 256 → Fin 128 → EReal := fun k d => R (ix2 k d)

/-- The sum of the squared reconstruction errors over a block of `M` samples. -/
def reconSum {M : ℕ} (x a : (⟨2, ![M, 1024]⟩ : Shape).Idx → EReal) : EReal :=
  ∑ n : Fin M, ∑ d : Fin 1024, (x (ix2 n d) - a (ix2 n d)) * (x (ix2 n d) - a (ix2 n d))

/-- The sum of the squared clustering residuals over a block of `M` samples. -/
def clusterSum {M : ℕ} (h : (⟨2, ![M, 128]⟩ : Shape).Idx → EReal) (R : (⟨2, ![256, 128]⟩ : Shape).Idx → EReal) : EReal :=
  ∑ n : Fin M, ∑ q : Fin 128, resid (rowOf h n) (centres R) q

/-- The loss. -/
def loss (x a : (⟨2, ![16384, 1024]⟩ : Shape).Idx → EReal) (h : (⟨2, ![16384, 128]⟩ : Shape).Idx → EReal)
    (R : (⟨2, ![256, 128]⟩ : Shape).Idx → EReal) : EReal :=
  Ideal.div (reconSum x a) (Ideal.ofBits .f32 0x4B800000#32)
    + Ideal.ofBits .f32 0x3F800000#32 * Ideal.div (clusterSum h R) (Ideal.ofBits .f32 0x4A000000#32)

end Cert.Spec

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value; the same for a
  host-side maximum over the columns. The pointwise square root, exponential and logarithm read at an entry.
-/
import proofs.«169356_j10153302688165_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Cert.LibRowOps

end
-- ==== Proof.Tile.lean ====
/-
  What one grid point computes from its blocks, read on the extended reals.

  A point holds a tile of 2048 samples: x and a (2048 x 1024), the latent rows h (2048 x 128) and all the centres R.
  It adds to one running total the tile's squared reconstruction error  sum_(r,d) (x(r,d) - a(r,d))^2  and to another
  the tile's squared clustering residual. The first total is a reduction of the whole tile to one number; written as
  a sum over every index of the tile it is re-indexed by rows and columns. The row of squared norms |R(k,.)|^2 is
  computed once and read back as a 1 x 256 row. At the last point of a core the two totals are spread over 128 lanes.
-/
import proofs.«169356_j10153302688165_2_alg».proof.Proof.Gen.KernelIdeal.Skeleton
import proofs.«169356_j10153302688165_2_alg».proof.Proof.Spec
import proofs.«169356_j10153302688165_2_alg».proof.Proof.LibRowOps
import Idealize.ShloMosaic.Lib.ValueLayout

noncomputable section

namespace Cert.Tile

open Idealize.ShloMosaic Idealize.ShloMosaic.ValueIdx Cert.KernelIdeal Cert.KernelIdeal.Gen
open scoped BigOperators

variable [Cert.KernelIdeal.Facts₀]

/-- A sum over every entry of a reshaped array is the sum over every entry of the array: reshaping is a bijection
    of the index sets. -/
theorem sum_shapeCast {s t : Shape} (x : s.Idx → EReal) (h : s.ShapeCasts t) :
    ∑ j : t.Idx, shapeCast t x h j = ∑ i : s.Idx, x i :=
  Equiv.sum_comp (Shape.reshapeEquiv h) x

/-- A tile reduced to one number: the reduction over both tile axes of the tile seen with a unit leading axis, read at
    its one entry, is the sum of all the tile's entries. -/
theorem total_of_tile {s s3 : Shape} {axes : List (Fin s3.rank)} (v : FVec Ideal s .f32) (hc : s.ShapeCasts s3)
    (hr : s3.Reduces axes S1) (hφ : FKind.Formats .f32) (hacc : (0x00000000#32 : BitVec 32) = FKind.add.neutral .f32 hφ)
    (hc' : S1.ShapeCasts S1x1x1) (hp : ∀ a, (![0, 0, 0] : Fin S1x1x1.rank → ℕ) a < S1x1x1.size a) :
    extractAt ![0, 0, 0] (shapeCast S1x1x1 (multiReduction .add axes S1 (shapeCast s3 v hc) 0x00000000#32 hr hφ hacc) hc') hp
      = ∑ i : s.Idx, v i := by
  unfold extractAt
  show multiReduction .add axes S1 (shapeCast s3 v hc) 0x00000000#32 hr hφ hacc _ = _
  refine (Ideal.multiReduction_add_total _ _ hr (fun b => ?_) hφ hacc _).trans (sum_shapeCast v hc)
  match b with
  | ⟨0, _⟩ => rfl

/-- The reconstruction total after a point: what it held before plus the tile's squared reconstruction error. -/
theorem recon_step (x a : Vec Ideal S2048x1024 .f32) (acc : Vec Ideal S1x1 .f32) (y : S1x1.Idx) :
    k0_pay7 (F := Ideal) x a acc y = acc y + Spec.reconSum (M := 2048) x a := by
  unfold k0_pay7
  refine (congrFun (shapeCast_self _ _) y).trans ?_
  show acc y + _ = _
  refine congrArg (acc y + ·) ?_
  refine (total_of_tile _ _ _ _ _ _ _).trans ?_
  refine (sum_idx2 _).trans ?_
  exact Finset.sum_congr rfl fun n _ => Finset.sum_congr rfl fun d _ => rfl

/-- The running totals start at zero. -/
theorem zero_acc4 (y : S1x1.Idx) : k0_pay4 (F := Ideal) y = 0 := by
  unfold k0_pay4
  refine (congrFun (shapeCast_self _ _) y).trans ?_
  exact Ideal.ofBits_zero_f32

theorem zero_acc5 (y : S1x1.Idx) : k0_pay5 (F := Ideal) y = 0 := by
  unfold k0_pay5
  refine (congrFun (shapeCast_self _ _) y).trans ?_
  exact Ideal.ofBits_zero_f32

/-- The row of squared norms of the centres: entry `k` of the 1 x 256 row is |R(k,.)|^2. -/
theorem sqnorm_row (R : Vec Ideal S256x128 .f32) (u : Fin 1) (k : Fin 256) :
    k0_pay6 (F := Ideal) R (ix2 u k) = ∑ j : Fin 128, R (ix2 k j) * R (ix2 k j) := by
  unfold k0_pay6
  refine (congrFun (shapeCast_self _ _) (ix2 u k)).trans ?_
  refine (shapeCast_apply _ _ (ix2 u k) (ix2 k (0 : Fin 1)) ?_).trans ?_
  · have hu : u.val = 0 := by omega
    rw [Shape.rowMajor_val_two, Shape.rowMajor_val_two]
    show k.val * 1 + 0 = u.val * 256 + k.val
    rw [hu]; omega
  refine (LibColumn.shapeCast_a_a1_apply _ _ k 0).trans ?_
  refine (LibRowOps.rowSum_apply _ _ _ _ _ k).trans ?_
  exact Finset.sum_congr rfl fun j _ => rfl

/-- A total spread over the 128 lanes of an output block: every lane holds the total. -/
theorem spread2 (acc : Vec Ideal S1x1 .f32) (y : S1x1x128.Idx) : k0_pay2 (F := Ideal) acc y = acc (ix2 (0 : Fin 1) (0 : Fin 1)) := by
  unfold k0_pay2 extractAt
  exact congrArg acc (funext fun a => Fin.ext (by match a with | ⟨0, _⟩ => rfl | ⟨1, _⟩ => rfl))

theorem spread3 (acc : Vec Ideal S1x1 .f32) (y : S1x1x128.Idx) : k0_pay3 (F := Ideal) acc y = acc (ix2 (0 : Fin 1) (0 : Fin 1)) := by
  unfold k0_pay3 extractAt
  exact congrArg acc (funext fun a => Fin.ext (by match a with | ⟨0, _⟩ => rfl | ⟨1, _⟩ => rfl))

end Cert.Tile

end
-- ==== Proof.LibDotT.lean ====
/-
  A matrix product contracted over the LAST axis of both operands, over the extended reals, read at one entry.

  For an M×K matrix `l` and an N×K matrix `r` the product contracted over the columns of both (l · rᵀ) has, at
  entry (p, q), the value ∑ₖ l(p,k)·r(q,k). This holds for the vector unit's product into a zero accumulator and for
  the host's `dot_general` alike; the only work is to identify the contraction's one-axis index type with `Fin K`
  and the operand indices with (p,k) and (q,k).
-/
import Idealize.ShloMosaic.PureOps.Ideal.Laws
import Idealize.ShloMosaic.Lib.ValueIdx

noncomputable section

namespace Cert.LibDotT

open Idealize.ShloMosaic Idealize.ShloMosaic.ValueIdx
open scoped BigOperators

variable {M K N : ℕ} {φ₁ φ₂ : FTy}

/-- The sum over the contraction index of an M×K by N×K product contracted over both last axes is the sum over
    `k : Fin K` of the left operand at (row, k) times the right operand at (column, k). -/
theorem transposed_sum (l : FVec Ideal ⟨2, ![M, K]⟩ φ₁) (r : FVec Ideal ⟨2, ![N, K]⟩ φ₂) (p : Fin M) (q : Fin N) :
    (∑ c : (DotDims.transposedRhs M K N).contr.Idx,
        l ((DotDims.transposedRhs M K N).lhsIdx (ix2 p q) c) * r ((DotDims.transposedRhs M K N).rhsIdx (ix2 p q) c))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl (ix2 p q) _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => rfl
      | ⟨1, _⟩ => exact ((DotDims.transposedRhs M K N).rhsIdx_val_of_single rfl (ix2 p q) _).trans hk)
  rw [el, er]

/-- The vector unit's product into the zero accumulator, for any dimension record that is this one. -/
theorem matmul_zero_apply (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (q : Fin N) :
    FloatOps.matmul d prec l r (constant ⟨2, ![M, N]⟩ .f32 0x00000000#32) (ix2 p q) = ∑ k : Fin K, l (ix2 p k) * r (ix2 q k) := by
  subst hd
  exact (Ideal.matmul_constant_zero_apply _ prec l r (ix2 p q)).trans (transposed_sum l r p q)

/-- The host's `dot_general`, for any dimension record that is this one. -/
theorem dotGeneral_apply (d : DotDims ⟨2, ![M, K]⟩ ⟨2, ![N, K]⟩ ⟨2, ![M, N]⟩) (hd : d = DotDims.transposedRhs M K N)
    (prec : Option ContractPrecision) (sched : HostSchedule) (l : FVec Ideal ⟨2, ![M, K]⟩ φ₁) (r : FVec Ideal ⟨2, ![N, K]⟩ φ₂)
    (p : Fin M) (q : Fin N) :
    FloatOps.dotGeneral d prec sched l r (ix2 p q) = ∑ k : Fin K, l (ix2 p k) * r (ix2 q k) := by
  subst hd
  exact (Ideal.dotGeneral_apply _ prec sched l r (ix2 p q)).trans (transposed_sum l r p q)

end Cert.LibDotT

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.Cluster.lean ====
/-
  The clustering part of one grid point, read on the extended reals.

  For the tile's latent rows h (2048 x 128), the centres R (256 x 128) and the row r2 of squared norms of the centres:
  entry (r, k) of the distance array is  sqrt( max( |h_r|^2 + r2(k) - 2 <h_r, R_k>, 0 ) ),  where |h_r|^2 is a row sum kept as a
  column and spread over the 256 centres, r2 is one row spread over the 2048 samples, and <h_r, R_k> is the product of h
  with R contracted over the latent coordinate of both. The weights are exp(-dist); each row of weights is divided by its
  sum plus eps; the soft-assigned centre is the product of these with R; and the tile's squared residual, reduced to one
  number, is the sum over samples and coordinates of the residual of each sample's own row.
-/
import proofs.«169356_j10153302688165_2_alg».proof.Proof.Tile
import proofs.«169356_j10153302688165_2_alg».proof.Proof.LibDotT
import proofs.«169356_j10153302688165_2_alg».proof.Proof.LibPlainDot

noncomputable section

namespace Cert.Cluster

open Idealize.ShloMosaic Idealize.ShloMosaic.ValueIdx Cert.KernelIdeal Cert.KernelIdeal.Gen
open scoped BigOperators

variable [Cert.KernelIdeal.Facts₀]

/-- The distance expression at one entry, from its three ingredients at that entry. -/
theorem dist_form (b1 b2 mm : FVec Ideal S2048x256 .f32) (i : S2048x256.Idx) (A B C : EReal)
    (h1 : b1 i = A) (h2 : b2 i = B) (h3 : mm i = C) :
    sqrt (maximumf (subf (addf b1 b2) (mulf (broadcast S2048x256 (Scalar.ofBits (F := Ideal) .f32 0x40000000#32)) mm))
      (broadcast S2048x256 (Scalar.ofBits (F := Ideal) .f32 0x00000000#32))) i
      = Ideal.sqrt (max (A + B - Ideal.ofBits .f32 0x40000000#32 * C) 0) := by
  show Ideal.sqrt (max ((b1 i + b2 i) - (Ideal.ofBits .f32 0x40000000#32 * mm i)) (Ideal.ofBits .f32 0x00000000#32)) = _
  rw [h1, h2, h3, Ideal.ofBits_zero_f32]

/-- Entry (r, k) of the distance array is the distance from sample r's latent row to centre k. -/
theorem dist_entry (h : Vec Ideal S2048x128 .f32) (R : Vec Ideal S256x128 .f32) (r2 : Vec Ideal S1x256 .f32)
    (hr2 : ∀ k : Fin 256, r2 (ix2 (0 : Fin 1) k) = ∑ j : Fin 128, R (ix2 k j) * R (ix2 k j)) (r : Fin 2048) (k : Fin 256) :
    k0_pay8 (F := Ideal) h R r2 (ix2 r k) = Spec.dist (Spec.rowOf (M := 2048) h r) (Spec.centres R) k := by
  unfold k0_pay8 Spec.dist
  refine dist_form _ _ _ _ _ _ _ ?_ ?_ ?_
  · refine (LibColumn.broadcastTo_a1_ab_apply _ _ r k).trans ?_
    refine (LibColumn.shapeCast_a_a1_apply _ _ r 0).trans ?_
    refine (LibRowOps.rowSum_apply _ _ _ _ _ r).trans ?_
    exact Finset.sum_congr rfl fun j _ => rfl
  · exact (broadcastTo_1b_ab_apply r2 _ r k).trans (hr2 k)
  · exact LibDotT.matmul_zero_apply _ rfl none h R r k

/-- Entry (r, k) of the weight array exp(-1 * dist). -/
theorem weight_entry (h : Vec Ideal S2048x128 .f32) (R : Vec Ideal S256x128 .f32) (r2 : Vec Ideal S1x256 .f32)
    (hr2 : ∀ k : Fin 256, r2 (ix2 (0 : Fin 1) k) = ∑ j : Fin 128, R (ix2 k j) * R (ix2 k j)) (r : Fin 2048) (k : Fin 256) :
    exp (mulf (k0_pay9 (F := Ideal)) (k0_pay8 (F := Ideal) h R r2)) (ix2 r k)
      = Spec.weight (Spec.rowOf (M := 2048) h r) (Spec.centres R) k := by
  show Ideal.exp (Ideal.ofBits .f32 0xBF800000#32 * k0_pay8 (F := Ideal) h R r2 (ix2 r k)) = _
  rw [dist_entry h R r2 hr2 r k]
  rfl

/-- The rows of an array of weights, each divided by its sum plus eps. -/
def softArr (E : FVec Ideal S2048x256 .f32) : FVec Ideal S2048x256 .f32 :=
  divf E (broadcastTo S2048x256 (addf (shapeCast S2048x1 (multiReduction .add [1] S2048 E 0x00000000#32 reduces_S2048x256_S2048 (.inl rfl) rfl)
    shapeCasts_S2048_S2048x1) (broadcast S2048x1 (Scalar.ofBits (F := Ideal) .f32 0x322BCC77#32))) broadcasts_S2048x1_S2048x256)

theorem softArr_apply (E : FVec Ideal S2048x256 .f32) (r : Fin 2048) (k : Fin 256) :
    softArr E (ix2 r k) = Ideal.div (E (ix2 r k)) ((∑ k' : Fin 256, E (ix2 r k')) + Ideal.ofBits .f32 0x322BCC77#32) := by
  unfold softArr
  show Ideal.div (E (ix2 r k)) (broadcastTo S2048x256 _ _ (ix2 r k)) = _
  refine congrArg (Ideal.div (E (ix2 r k))) ?_
  refine (LibColumn.broadcastTo_a1_ab_apply _ _ r k).trans ?_
  show shapeCast S2048x1 _ _ (ix2 r (0 : Fin 1)) + Ideal.ofBits .f32 0x322BCC77#32 = _
  refine congrArg (· + Ideal.ofBits .f32 0x322BCC77#32) ?_
  refine (LibColumn.shapeCast_a_a1_apply _ _ r 0).trans ?_
  exact LibRowOps.rowSum_apply _ _ _ _ _ r

/-- The squared residual at entry (r, q), when the weight array holds the weights of each sample's row. -/
theorem resid_entry (h : FVec Ideal S2048x128 .f32) (R : FVec Ideal S256x128 .f32) (E : FVec Ideal S2048x256 .f32)
    (hE : ∀ (r : Fin 2048) (k : Fin 256), E (ix2 r k) = Spec.weight (Spec.rowOf (M := 2048) h r) (Spec.centres R) k)
    (r : Fin 2048) (q : Fin 128) :
    mulf (subf h (matmul dot_S2048x256_S256x128_S2048x128_1_0_0_1_n_n none (softArr E) R (constant S2048x128 .f32 0x00000000#32)))
         (subf h (matmul dot_S2048x256_S256x128_S2048x128_1_0_0_1_n_n none (softArr E) R (constant S2048x128 .f32 0x00000000#32))) (ix2 r q)
      = Spec.resid (Spec.rowOf (M := 2048) h r) (Spec.centres R) q := by
  have hm : matmul dot_S2048x256_S256x128_S2048x128_1_0_0_1_n_n none (softArr E) R (constant S2048x128 .f32 0x00000000#32) (ix2 r q)
      = ∑ k : Fin 256, Spec.soft (Spec.rowOf (M := 2048) h r) (Spec.centres R) k * Spec.centres R k q := by
    refine (LibPlainDot.matmul_zero_apply _ rfl none (softArr E) R r q).trans ?_
    refine Finset.sum_congr rfl fun k _ => congrArg (· * R (ix2 k q)) ?_
    rw [softArr_apply, hE r k]
    unfold Spec.soft
    exact congrArg (fun s => Ideal.div _ (s + _)) (Finset.sum_congr rfl fun k' _ => hE r k')
  show (h (ix2 r q) - matmul dot_S2048x256_S256x128_S2048x128_1_0_0_1_n_n none (softArr E) R (constant S2048x128 .f32 0x00000000#32) (ix2 r q))
      * (h (ix2 r q) - matmul dot_S2048x256_S256x128_S2048x128_1_0_0_1_n_n none (softArr E) R (constant S2048x128 .f32 0x00000000#32) (ix2 r q)) = _
  rw [hm]
  rfl

/-- The clustering total after a point: what it held before plus the tile's squared clustering residual. -/
theorem cluster_step (h : Vec Ideal S2048x128 .f32) (R : Vec Ideal S256x128 .f32) (r2 : Vec Ideal S1x256 .f32) (acc : Vec Ideal S1x1 .f32)
    (hr2 : ∀ k : Fin 256, r2 (ix2 (0 : Fin 1) k) = ∑ j : Fin 128, R (ix2 k j) * R (ix2 k j)) (y : S1x1.Idx) :
    k0_pay1 (F := Ideal) h R (k0_pay8 (F := Ideal) h R r2) (k0_pay9 (F := Ideal)) acc y = acc y + Spec.clusterSum (M := 2048) h R := by
  unfold k0_pay1
  refine (congrFun (shapeCast_self _ _) y).trans ?_
  show acc y + _ = _
  refine congrArg (acc y + ·) ?_
  refine (Tile.total_of_tile _ _ _ _ _ _ _).trans ?_
  refine (sum_idx2 _).trans ?_
  refine Finset.sum_congr rfl fun r _ => Finset.sum_congr rfl fun q _ => ?_
  exact resid_entry h R (exp (mulf (k0_pay9 (F := Ideal)) (k0_pay8 (F := Ideal) h R r2))) (fun r k => weight_entry h R r2 hr2 r k) r q

end Cert.Cluster

end
-- ==== Proof.Pieces.lean ====
/-
  What each control case of the kernel body leaves in its buffers, as values of the blocks it was given.

  The body has three cases. At a core's first point it zeroes the two running totals and stores the row of squared
  norms of the centres, then adds the tile's two sums to the (zero) totals. At a middle point it adds the tile's sums
  to the totals the point before left, and leaves the row of squared norms alone. At a core's last point it does the same
  and then writes each total, spread over 128 lanes, into its output block. A buffer stored whole and then read back
  reads as the value stored.
-/
import proofs.«169356_j10153302688165_2_alg».proof.Proof.Gen.KernelIdeal.Frame
import Idealize.ShloMosaic.Lib.Pipeline.Value
import Idealize.ShloMosaic.Lib.Tactic

noncomputable section

set_option maxRecDepth 16384

namespace Cert.Pieces

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## A core's first point -/

theorem first_recon (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : cond0_0 i) (hc1 : ¬cond0_1 i)
    (x0 : Vec F S2048x1024 .f32) (x1 : Vec F S2048x1024 .f32) (x2 : Vec F S2048x128 .f32) (x3 : Vec F S256x128 .f32) :
    sout0_A_0 c i arg2 harg2 arg3 harg3 arg4 harg4 arg5 harg5 arg6 harg6 arg7 harg7 arg8 harg8 arg9 harg9 arg10 harg10 hc0 hc1 x0 x1 x2 x3 = k0_pay7 x0 x1 k0_pay4 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S2048x1024) hz2]

theorem first_cluster (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : cond0_0 i) (hc1 : ¬cond0_1 i)
    (x0 : Vec F S2048x1024 .f32) (x1 : Vec F S2048x1024 .f32) (x2 : Vec F S2048x128 .f32) (x3 : Vec F S256x128 .f32) :
    sout0_A_1 c i arg2 harg2 arg3 harg3 arg4 harg4 arg5 harg5 arg6 harg6 arg7 harg7 arg8 harg8 arg9 harg9 arg10 harg10 hc0 hc1 x0 x1 x2 x3 = k0_pay1 x2 x3 (k0_pay8 x2 x3 (k0_pay6 x3)) k0_pay9 k0_pay5 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S1x1) hz2, View.readCov_unit_zero (S := S1x1) _ hz2, View.readCov_unit_zero (S := S1x256) _ hz2]
  simp only [View.readAt_eq_ld, harg4.read_unread, harg5.read_unread, View.ld_unit_zero (S := S2048x128) hz2, View.ld_unit_zero (S := S256x128) hz2]

theorem first_sqnorm (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : cond0_0 i) (hc1 : ¬cond0_1 i)
    (x0 : Vec F S2048x1024 .f32) (x1 : Vec F S2048x1024 .f32) (x2 : Vec F S2048x128 .f32) (x3 : Vec F S256x128 .f32) :
    sout0_A_2 c i arg2 harg2 arg3 harg3 arg4 harg4 arg5 harg5 arg6 harg6 arg7 harg7 arg8 harg8 arg9 harg9 arg10 harg10 hc0 hc1 x0 x1 x2 x3 = k0_pay6 x3 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_unit_zero hz2]
  simp only [View.readAt_eq_ld, harg5.read_unread, View.ld_unit_zero (S := S256x128) hz2]

/-! ## A middle point -/

theorem mid_recon (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : ¬cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    sout0_B_0 c i arg2 harg2 arg3 harg3 arg4 harg4 arg5 harg5 arg6 harg6 arg7 harg7 arg8 harg8 arg9 harg9 arg10 harg10 hc0 hc1 x0 x1 x2 x3 xs0 xs1 xs2 = k0_pay7 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg2.read_unread, harg3.read_unread, harg8.read_unread, View.ld_unit_zero (S := S2048x1024) hz2, View.ld_unit_zero (S := S1x1) hz2]

theorem mid_cluster (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : ¬cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    sout0_B_1 c i arg2 harg2 arg3 harg3 arg4 harg4 arg5 harg5 arg6 harg6 arg7 harg7 arg8 harg8 arg9 harg9 arg10 harg10 hc0 hc1 x0 x1 x2 x3 xs0 xs1 xs2 = k0_pay1 x2 x3 (k0_pay8 x2 x3 xs2) k0_pay9 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 xs0 xs1 xs2)]
  unfold kernelRun0_B
  dsimp only
  sl_unfold_words
  rw [View.canon_unit_zero hz2]
  simp only [View.readAt_eq_ld, harg4.read_unread, harg5.read_unread, harg9.read_unread, harg10.read_unread, View.ld_unit_zero (S := S2048x128) hz2, View.ld_unit_zero (S := S256x128) hz2, View.ld_unit_zero (S := S1x1) hz2, View.ld_unit_zero (S := S1x256) hz2]

/-! ## A core's last point -/

theorem last_recon (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    sout0_C_0 c i arg2 harg2 arg3 harg3 arg4 harg4 arg5 harg5 arg6 harg6 arg7 harg7 arg8 harg8 arg9 harg9 arg10 harg10 hc0 hc1 x0 x1 x2 x3 xs0 xs1 xs2 = k0_pay7 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg2.read_unread, harg3.read_unread, harg8.read_unread, View.ld_unit_zero (S := S2048x1024) hz2, View.ld_unit_zero (S := S1x1) hz2]

theorem last_cluster (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    sout0_C_1 c i arg2 harg2 arg3 harg3 arg4 harg4 arg5 harg5 arg6 harg6 arg7 harg7 arg8 harg8 arg9 harg9 arg10 harg10 hc0 hc1 x0 x1 x2 x3 xs0 xs1 xs2 = k0_pay1 x2 x3 (k0_pay8 x2 x3 xs2) k0_pay9 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz2]
  simp only [View.readAt_eq_ld, harg4.read_unread, harg5.read_unread, harg9.read_unread, harg10.read_unread, View.ld_unit_zero (S := S2048x128) hz2, View.ld_unit_zero (S := S256x128) hz2, View.ld_unit_zero (S := S1x1) hz2, View.ld_unit_zero (S := S1x256) hz2]

theorem last_out_recon (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    out0_C_4 c i arg2 harg2 arg3 harg3 arg4 harg4 arg5 harg5 arg6 harg6 arg7 harg7 arg8 harg8 arg9 harg9 arg10 harg10 hc0 hc1 x0 x1 x2 x3 xs0 xs1 xs2 = k0_pay2 (k0_pay7 x0 x1 xs0) := by
  unfold out0_C_4
  rw [View.read_writes_eq_canon _ _ _ (cover0_C_4 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz3, View.readCov_unit_zero (S := S1x1) _ hz2]
  simp only [View.readAt_eq_ld, harg2.read_unread, harg3.read_unread, harg8.read_unread, View.ld_unit_zero (S := S2048x1024) hz2, View.ld_unit_zero (S := S1x1) hz2]

theorem last_out_cluster (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S2048x128 .f32) (harg4 : arg4.IsWhole) (arg5 : Memref sig .tc .vmem S256x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x256 .f32) (harg10 : arg10.IsWhole) (hc0 : ¬cond0_0 i) (hc1 : cond0_1 i)
    (x0 : Vec F S2048x1024 .f32) (x1 : Vec F S2048x1024 .f32) (x2 : Vec F S2048x128 .f32) (x3 : Vec F S256x128 .f32) (xs0 : Vec F S1x1 .f32) (xs1 : Vec F S1x1 .f32) (xs2 : Vec F S1x256 .f32) :
    out0_C_5 c i arg2 harg2 arg3 harg3 arg4 harg4 arg5 harg5 arg6 harg6 arg7 harg7 arg8 harg8 arg9 harg9 arg10 harg10 hc0 hc1 x0 x1 x2 x3 xs0 xs1 xs2 = k0_pay3 (k0_pay1 x2 x3 (k0_pay8 x2 x3 xs2) k0_pay9 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 xs0 xs1 xs2)]
  unfold kernelRun0_C
  dsimp only
  sl_unfold_words
  rw [View.canon_unit_zero hz3, View.readCov_unit_zero (S := S1x1) _ hz2]
  simp only [View.readAt_eq_ld, harg4.read_unread, harg5.read_unread, harg9.read_unread, harg10.read_unread, View.ld_unit_zero (S := S2048x128) hz2, View.ld_unit_zero (S := S256x128) hz2, View.ld_unit_zero (S := S1x1) hz2, View.ld_unit_zero (S := S1x256) hz2]

end Cert.Pieces

end
-- ==== Proof.LibScatterSum.lean ====
/-
  Two general facts for comparing a blocked, dense computation with a gather / scatter-add formulation of the
  same sums. Nothing here mentions a program.

  * Over the extended reals the host's accumulating float scatter is, at each element, the operand's element plus
    the sum of the updates whose result index is that element. When those updates are exactly the image of an
    injective enumeration `g` (for a dense edge list: the edges with a given target, enumerated by their source),
    the sum is a plain sum over the enumeration.
  * A sum over `m * n` consecutive rows is the sum over the `m` blocks of the sums over each block's `n` rows.
-/
import Idealize.ShloMosaic.PureOps.Ideal
import Mathlib.Algebra.BigOperators.Fin
import Mathlib.Logic.Equiv.Fin.Basic

noncomputable section

namespace Cert.Lib.ScatterSum

open Idealize.ShloMosaic

/-- The accumulating scatter at element `i`, when the updates landing on `i` are enumerated without repetition by
    `g`: the operand's element plus the sum of those updates. -/
theorem hostScatterAdd_apply_of_fiber {s si su : Shape} (d : ScatterDims s si su) {w : Nat} (x : s.Idx → EReal)
    (idx : IVec si w) (upd : su.Idx → EReal) (i : s.Idx) {κ : Type*} [Fintype κ] (g : κ → su.Idx)
    (hg : Function.Injective g) (h : ∀ j, d.resultIdx? j idx = some i ↔ ∃ k, g k = j) :
    Ideal.hostScatterAdd d x idx upd i = x i + ∑ k, upd (g k) := by
  classical
  unfold Ideal.hostScatterAdd
  have e : (Finset.univ.filter fun j => d.resultIdx? j idx = some i) = Finset.univ.image g := by
    ext j
    simp only [Finset.mem_filter, Finset.mem_univ, true_and, Finset.mem_image, h]
  have e' : (∑ j ∈ Finset.univ.filter (fun j => d.resultIdx? j idx = some i), upd j) = ∑ k, upd (g k) := by
    rw [← Finset.sum_image (s := Finset.univ) (g := g) (f := upd) (fun a _ b _ hab => hg hab), ← e]
  exact congrArg (x i + ·) e'

/-- Row `i` of block `b` is a row of the whole. -/
theorem block_row_lt {m n b i : ℕ} (hb : b < m) (hi : i < n) : b * n + i < m * n :=
  calc b * n + i < b * n + n := Nat.add_lt_add_left hi _
    _ = (b + 1) * n := by ring
    _ ≤ m * n := Nat.mul_le_mul_right _ hb

/-- A sum over `m * n` rows, block by block. -/
theorem sum_blocks {M : Type*} [AddCommMonoid M] (m n : ℕ) (f : Fin (m * n) → M) :
    ∑ k, f k = ∑ b : Fin m, ∑ i : Fin n, f ⟨b.val * n + i.val, block_row_lt b.isLt i.isLt⟩ := by
  rw [← Equiv.sum_comp finProdFinEquiv f, Fintype.sum_prod_type]
  refine Finset.sum_congr rfl fun b _ => Finset.sum_congr rfl fun i _ => congrArg f (Fin.ext ?_)
  simp only [finProdFinEquiv_apply_val]
  ring

end Cert.Lib.ScatterSum

end
-- ==== Proof.Regroup.lean ====
/-
  Regrouping the loss's two sums by tiles of rows.

  The 16384 samples are cut into eight tiles of 2048 consecutive rows. Addition on the extended reals is commutative
  and associative, so a sum over all the samples is the sum over the tiles of each tile's sum; no finiteness is used.
  For the reconstruction sum each summand reads one row of each input. For the clustering sum a sample's residual
  reads that sample's own row of the latent codes and all the centres, so a tile's clustering sum reads the tile's
  rows and nothing else of the latent codes. Lastly, two groups of four consecutive points are the eight points.
-/
import proofs.«169356_j10153302688165_2_alg».proof.Proof.Spec
import proofs.«169356_j10153302688165_2_alg».proof.Proof.LibScatterSum

noncomputable section

namespace Cert.Regroup

open Idealize.ShloMosaic Idealize.ShloMosaic.ValueIdx
open scoped BigOperators

/-- Row r of tile t is row t * 2048 + r of the whole array. -/
theorem tile_row_lt (t : Fin 8) (r : Fin 2048) : t.val * 2048 + r.val < 16384 := by
  have ht := t.isLt
  have hr := r.isLt
  omega

/-- Tile t (2048 consecutive rows, all D columns) of an array of 16384 rows. -/
def tileOf {D : ℕ} (t : Fin 8) (x : (⟨2, ![16384, D]⟩ : Shape).Idx → EReal) : (⟨2, ![2048, D]⟩ : Shape).Idx → EReal :=
  fun y => x (ix2 (⟨t.val * 2048 + (y 0).val, tile_row_lt t ⟨(y 0).val, idx2_lt0 y⟩⟩ : Fin 16384)
    (⟨(y 1).val, idx2_lt1 y⟩ : Fin D))

theorem tileOf_apply {D : ℕ} (t : Fin 8) (x : (⟨2, ![16384, D]⟩ : Shape).Idx → EReal) (r : Fin 2048) (d : Fin D) :
    tileOf t x (ix2 r d) = x (ix2 (⟨t.val * 2048 + r.val, tile_row_lt t r⟩ : Fin 16384) d) := rfl

/-- The reconstruction sum over all samples is the sum over the eight tiles of each tile's sum. -/
theorem recon_tiles (x a : (⟨2, ![16384, 1024]⟩ : Shape).Idx → EReal) :
    Cert.Spec.reconSum (M := 16384) x a = ∑ t : Fin 8, Cert.Spec.reconSum (M := 2048) (tileOf t x) (tileOf t a) := by
  unfold Cert.Spec.reconSum
  refine (Cert.Lib.ScatterSum.sum_blocks 8 2048 _).trans ?_
  refine Finset.sum_congr rfl fun t _ => Finset.sum_congr rfl fun r _ => Finset.sum_congr rfl fun d _ => ?_
  rw [tileOf_apply, tileOf_apply]

/-- Row r of tile t of the latent codes is row t * 2048 + r of the latent codes. -/
theorem rowOf_tileOf (h : (⟨2, ![16384, 128]⟩ : Shape).Idx → EReal) (t : Fin 8) (r : Fin 2048) :
    Cert.Spec.rowOf (tileOf t h) r = Cert.Spec.rowOf h (⟨t.val * 2048 + r.val, tile_row_lt t r⟩ : Fin 16384) :=
  funext fun d => tileOf_apply t h r d

/-- The clustering sum likewise: a sample's residual depends only on its own row of h (and on all of R). -/
theorem cluster_tiles (h : (⟨2, ![16384, 128]⟩ : Shape).Idx → EReal) (R : (⟨2, ![256, 128]⟩ : Shape).Idx → EReal) :
    Cert.Spec.clusterSum (M := 16384) h R = ∑ t : Fin 8, Cert.Spec.clusterSum (M := 2048) (tileOf t h) R := by
  unfold Cert.Spec.clusterSum
  refine (Cert.Lib.ScatterSum.sum_blocks 8 2048 _).trans ?_
  refine Finset.sum_congr rfl fun t _ => Finset.sum_congr rfl fun r _ => Finset.sum_congr rfl fun q _ => ?_
  rw [rowOf_tileOf]

/-- Two cores of four consecutive points each are the eight points. -/
theorem cores_points (s : ℕ → EReal) : ∑ c : Fin 2, ∑ j ∈ Finset.range 4, s (4 * c.val + j) = ∑ t : Fin 8, s t.val := by
  rw [Fin.sum_univ_eq_sum_range (fun c => ∑ j ∈ Finset.range 4, s (4 * c + j)) 2, Fin.sum_univ_eq_sum_range (fun t => s t) 8]
  simp only [Finset.sum_range_succ, Finset.sum_range_zero, zero_add, mul_zero, mul_one, add_zero, Nat.reduceAdd, add_assoc]

end Cert.Regroup

end
-- ==== Proof.Blocks.lean ====
/-
  The blocks the grid hands the body, as parts of the whole arrays.

  The grid has two cores of four points; point t = 4 (core) + (step) receives rows 2048 t .. 2048 t + 2047 of x, of a
  and of h (all their columns), and the whole of the centres R: a block's entry (r, d) is the array's entry
  (2048 t + r, d), because a block's coordinate is (block index) x (block size) + (coordinate inside the block) and the
  row block index at point t is t while the column block index is 0.
-/
import proofs.«169356_j10153302688165_2_alg».proof.Proof.Gen.KernelIdeal.Frame
import proofs.«169356_j10153302688165_2_alg».proof.Proof.Regroup
import Idealize.ShloMosaic.Lib.Pipeline.Value

noncomputable section

namespace Cert.Blocks

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The four argument arrays on core `c`, as functions of an index. -/
abbrev X (c : Dev nD) : (⟨2, ![16384, 1024]⟩ : Shape).Idx → EReal := m ((c : Thread nD τ).loc main_arg0)
abbrev A (c : Dev nD) : (⟨2, ![16384, 1024]⟩ : Shape).Idx → EReal := m ((c : Thread nD τ).loc main_arg2)
abbrev H (c : Dev nD) : (⟨2, ![16384, 128]⟩ : Shape).Idx → EReal := m ((c : Thread nD τ).loc main_arg1)
abbrev R (c : Dev nD) : (⟨2, ![256, 128]⟩ : Shape).Idx → EReal := m ((c : Thread nD τ).loc main_arg3)

theorem point_lt (t : Fin cfg0.N) : t.val < 8 := lt_of_lt_of_eq t.isLt (show cfg0.N = 8 from N_0)

/-- Point `t` as a tile number. -/
abbrev tile (t : Fin cfg0.N) : Fin 8 := ⟨t.val, point_lt t⟩

/-- The block indices of the four input windows at every point. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

/-- The block of x at point `t` is tile `t` of x. -/
theorem x_block (c : Dev nD) (t : Fin cfg0.N) :
    (iblk m c 0 t : Vec Ideal S2048x1024 .f32) = Regroup.tileOf (tile t) (X m c) := by
  funext j
  unfold iblk Regroup.tileOf
  rw [View.read_apply]
  show V m c main_arg0 _ = m ((c : Thread nD τ).loc main_arg0) _
  unfold V
  congr 1
  funext a
  apply Fin.ext
  match a with
  | ⟨0, _⟩ => show win0_0.index t 0 * 2048 + 1 * (j 0).val = t.val * 2048 + (j 0).val; rw [(idx0 t).1]; omega
  | ⟨1, _⟩ => show win0_0.index t 1 * 1024 + 1 * (j 1).val = (j 1).val; rw [(idx0 t).2]; omega

/-- The block of a at point `t` is tile `t` of a. -/
theorem a_block (c : Dev nD) (t : Fin cfg0.N) :
    (iblk m c 1 t : Vec Ideal S2048x1024 .f32) = Regroup.tileOf (tile t) (A m c) := by
  funext j
  unfold iblk Regroup.tileOf
  rw [View.read_apply]
  show V m c main_arg2 _ = m ((c : Thread nD τ).loc main_arg2) _
  unfold V
  congr 1
  funext a
  apply Fin.ext
  match a with
  | ⟨0, _⟩ => show win0_1.index t 0 * 2048 + 1 * (j 0).val = t.val * 2048 + (j 0).val; rw [(idx1 t).1]; omega
  | ⟨1, _⟩ => show win0_1.index t 1 * 1024 + 1 * (j 1).val = (j 1).val; rw [(idx1 t).2]; omega

/-- The block of h at point `t` is tile `t` of h. -/
theorem h_block (c : Dev nD) (t : Fin cfg0.N) :
    (iblk m c 2 t : Vec Ideal S2048x128 .f32) = Regroup.tileOf (tile t) (H m c) := by
  funext j
  unfold iblk Regroup.tileOf
  rw [View.read_apply]
  show V m c main_arg1 _ = m ((c : Thread nD τ).loc main_arg1) _
  unfold V
  congr 1
  funext a
  apply Fin.ext
  match a with
  | ⟨0, _⟩ => show win0_2.index t 0 * 2048 + 1 * (j 0).val = t.val * 2048 + (j 0).val; rw [(idx2 t).1]; omega
  | ⟨1, _⟩ => show win0_2.index t 1 * 128 + 1 * (j 1).val = (j 1).val; rw [(idx2 t).2]; omega

/-- The block of the centres at every point is all of R. -/
theorem r_block (c : Dev nD) (t : Fin cfg0.N) : (iblk m c 3 t : Vec Ideal S256x128 .f32) = R m c := by
  funext j
  unfold iblk
  rw [View.read_apply]
  show V m c main_arg3 _ = m ((c : Thread nD τ).loc main_arg3) j
  unfold V
  congr 1
  funext a
  apply Fin.ext
  match a with
  | ⟨0, _⟩ => show win0_3.index t 0 * 256 + 1 * (j 0).val = (j 0).val; rw [(idx3 t).1]; omega
  | ⟨1, _⟩ => show win0_3.index t 1 * 128 + 1 * (j 1).val = (j 1).val; rw [(idx3 t).2]; omega

end Cert.Blocks

end
-- ==== Proof.Totals.lean ====
/-
  The running totals, point by point.

  Write T(t) for the squared reconstruction error of the tile at point t and C(t) for its squared clustering residual.
  Points 4q, 4q+1, 4q+2, 4q+3 belong to core q. After point n = 4q + i the first running total holds
  T(4q) + ... + T(4q + i) and the second C(4q) + ... + C(4q + i): the core's first point starts from zero, every later
  point adds its tile to what the point before left. The row of squared norms of the centres, computed at the core's
  first point, is the same row at every point, because every point sees all of R. At a core's last point (i = 3) every
  lane of the two output blocks holds the core's totals.
-/
import proofs.«169356_j10153302688165_2_alg».proof.Proof.Gen.KernelIdeal.Frame
import proofs.«169356_j10153302688165_2_alg».proof.Proof.Tile
import proofs.«169356_j10153302688165_2_alg».proof.Proof.Cluster
import proofs.«169356_j10153302688165_2_alg».proof.Proof.Pieces
import proofs.«169356_j10153302688165_2_alg».proof.Proof.Blocks

noncomputable section

namespace Cert.Totals

open Idealize.ShloMosaic Idealize.ShloMosaic.TcCoe Idealize.ShloMosaic.ValueIdx Idealize.SL.Sem Cert.KernelIdeal Cert.KernelIdeal.Gen
open scoped BigOperators

variable (m : (ℓ : Loc nD τ sig) → Buf (Elt Ideal) ℓ)

/-- The tile sums at point `t`. -/
def reconT (c : Dev nD) (t : Fin cfg0.N) : EReal :=
  Spec.reconSum (M := 2048) (iblk m c 0 t : Vec Ideal S2048x1024 .f32) (iblk m c 1 t : Vec Ideal S2048x1024 .f32)
def clusterT (c : Dev nD) (t : Fin cfg0.N) : EReal :=
  Spec.clusterSum (M := 2048) (iblk m c 2 t : Vec Ideal S2048x128 .f32) (Blocks.R m c)

/-- What the point before `t` left (for `t` not a first point). -/
abbrev prev (c : Dev nD) (t : Fin cfg0.N) := outsAt0 m c (t.val - 1) (Nat.lt_of_le_of_lt (Nat.sub_le _ _) t.isLt)

/-! ## One point -/

/-- A core's first point: the totals are the tile's sums, and the row of squared norms is that of R. -/
theorem stepA_recon (c : Dev nD) (t : Fin cfg0.N) (h0 : t.val % 4 = 0) (h1 : ¬t.val % 4 = 3) (y : S1x1.Idx) :
    (outsAt0 m c t.val t.isLt).2.2.1 y = reconT m c t := by
  refine (congrArg (fun p => p.2.2.1 y) (outsAt0_A m c t h0 h1)).trans ?_
  dsimp only
  refine (congrFun (Pieces.first_recon (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) y).trans ?_
  refine (Tile.recon_step (iblk m c 0 t) (iblk m c 1 t) (k0_pay4 (F := Ideal)) y).trans ?_
  rw [Tile.zero_acc4, zero_add]
  rfl

theorem stepA_cluster (c : Dev nD) (t : Fin cfg0.N) (h0 : t.val % 4 = 0) (h1 : ¬t.val % 4 = 3) (y : S1x1.Idx) :
    (outsAt0 m c t.val t.isLt).2.2.2.1 y = clusterT m c t := by
  refine (congrArg (fun p => p.2.2.2.1 y) (outsAt0_A m c t h0 h1)).trans ?_
  dsimp only
  refine (congrFun (Pieces.first_cluster (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) y).trans ?_
  refine (Cluster.cluster_step (iblk m c 2 t) (iblk m c 3 t) (k0_pay6 (F := Ideal) (iblk m c 3 t)) (k0_pay5 (F := Ideal))
    (fun k => Tile.sqnorm_row (iblk m c 3 t) 0 k) y).trans ?_
  rw [Tile.zero_acc5, zero_add]
  exact congrArg (fun r => Spec.clusterSum (M := 2048) (iblk m c 2 t) r) (Blocks.r_block m c t)

theorem stepA_sqnorm (c : Dev nD) (t : Fin cfg0.N) (h0 : t.val % 4 = 0) (h1 : ¬t.val % 4 = 3) (k : Fin 256) :
    (outsAt0 m c t.val t.isLt).2.2.2.2 (ix2 (0 : Fin 1) k) = ∑ j : Fin 128, Blocks.R m c (ix2 k j) * Blocks.R m c (ix2 k j) := by
  refine (congrArg (fun p => p.2.2.2.2 (ix2 (0 : Fin 1) k)) (outsAt0_A m c t h0 h1)).trans ?_
  dsimp only
  refine (congrFun (Pieces.first_sqnorm (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) (ix2 (0 : Fin 1) k)).trans ?_
  refine (Tile.sqnorm_row (iblk m c 3 t) 0 k).trans ?_
  rw [Blocks.r_block m c t]

/-- A middle point: each total is what the point before left plus the tile's sum; the row of squared norms is kept. -/
theorem stepB_recon (c : Dev nD) (t : Fin cfg0.N) (h0 : ¬t.val % 4 = 0) (h1 : ¬t.val % 4 = 3) (y : S1x1.Idx) :
    (outsAt0 m c t.val t.isLt).2.2.1 y = (prev m c t).2.2.1 y + reconT m c t := by
  refine (congrArg (fun p => p.2.2.1 y) (outsAt0_B m c t h0 h1)).trans ?_
  dsimp only
  refine (congrFun (Pieces.mid_recon (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2) y).trans ?_
  exact Tile.recon_step (iblk m c 0 t) (iblk m c 1 t) (prev m c t).2.2.1 y

theorem stepB_cluster (c : Dev nD) (t : Fin cfg0.N) (h0 : ¬t.val % 4 = 0) (h1 : ¬t.val % 4 = 3)
    (hsq : ∀ k : Fin 256, (prev m c t).2.2.2.2 (ix2 (0 : Fin 1) k) = ∑ j : Fin 128, Blocks.R m c (ix2 k j) * Blocks.R m c (ix2 k j))
    (y : S1x1.Idx) :
    (outsAt0 m c t.val t.isLt).2.2.2.1 y = (prev m c t).2.2.2.1 y + clusterT m c t := by
  refine (congrArg (fun p => p.2.2.2.1 y) (outsAt0_B m c t h0 h1)).trans ?_
  dsimp only
  refine (congrFun (Pieces.mid_cluster (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (prev m c t).2.2.1 (prev m c t).2.2.2.1 (prev m c t).2.2.2.2) y).trans ?_
  have e := Blocks.r_block m c t
  refine (Cluster.cluster_step (iblk m c 2 t) (iblk m c 3 t) (prev m c t).2.2.2.2 (prev m c t).2.2.2.1 (fun k => (hsq k).trans (by rw [e])) y).trans ?_
  exact congrArg (fun r => (prev m c t).2.2.2.1 y + Spec.clusterSum (M := 2048) (iblk m c 2 t) r) e

theorem stepB_sqnorm (c : Dev nD) (t : Fin cfg0.N) (h0 : ¬t.val % 4 = 0) (h1 : ¬t.val % 4 = 3) :
    (outsAt0 m c t.val t.isLt).2.2.2.2 = (prev m c t).2.2.2.2 := by
  refine (congrArg (fun p => p.2.2.2.2) (outsAt0_B m c t h0 h1)).trans ?_
  rfl

/-- A core's last point: each total is what the point before left plus the tile's sum; the row of squared norms is kept. -/
theorem stepC_recon (c : Dev nD) (t : Fin cfg0.N) (h0 : ¬t.val % 4 = 0) (h1 : t.val % 4 = 3) (y : S1x1.Idx) :
    (outsAt0 m c t.val t.isLt).2.2.1 y = (prev m c t).2.2.1 y + reconT m c t := by
  refine (congrArg (fun p => p.2.2.1 y) (outsAt0_C m c t h0 h1)).trans ?_
  dsimp only
  refine (congrFun (Pieces.last_recon (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2) y).trans ?_
  exact Tile.recon_step (iblk m c 0 t) (iblk m c 1 t) (prev m c t).2.2.1 y

theorem stepC_cluster (c : Dev nD) (t : Fin cfg0.N) (h0 : ¬t.val % 4 = 0) (h1 : t.val % 4 = 3)
    (hsq : ∀ k : Fin 256, (prev m c t).2.2.2.2 (ix2 (0 : Fin 1) k) = ∑ j : Fin 128, Blocks.R m c (ix2 k j) * Blocks.R m c (ix2 k j))
    (y : S1x1.Idx) :
    (outsAt0 m c t.val t.isLt).2.2.2.1 y = (prev m c t).2.2.2.1 y + clusterT m c t := by
  refine (congrArg (fun p => p.2.2.2.1 y) (outsAt0_C m c t h0 h1)).trans ?_
  dsimp only
  refine (congrFun (Pieces.last_cluster (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2) y).trans ?_
  have e := Blocks.r_block m c t
  refine (Cluster.cluster_step (iblk m c 2 t) (iblk m c 3 t) (prev m c t).2.2.2.2 (prev m c t).2.2.2.1 (fun k => (hsq k).trans (by rw [e])) y).trans ?_
  exact congrArg (fun r => (prev m c t).2.2.2.1 y + Spec.clusterSum (M := 2048) (iblk m c 2 t) r) e

theorem stepC_sqnorm (c : Dev nD) (t : Fin cfg0.N) (h0 : ¬t.val % 4 = 0) (h1 : t.val % 4 = 3) :
    (outsAt0 m c t.val t.isLt).2.2.2.2 = (prev m c t).2.2.2.2 := by
  refine (congrArg (fun p => p.2.2.2.2) (outsAt0_C m c t h0 h1)).trans ?_
  rfl

/-- At a core's last point every lane of the first output block holds the first total, -/
theorem stepC_out_recon (c : Dev nD) (t : Fin cfg0.N) (h0 : ¬t.val % 4 = 0) (h1 : t.val % 4 = 3) (y : S1x1x128.Idx) :
    (outsAt0 m c t.val t.isLt).1 y = (prev m c t).2.2.1 (ix2 (0 : Fin 1) (0 : Fin 1)) + reconT m c t := by
  refine (congrArg (fun p => p.1 y) (outsAt0_C m c t h0 h1)).trans ?_
  dsimp only
  refine (congrFun (Pieces.last_out_recon (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2) y).trans ?_
  refine (Tile.spread2 _ y).trans ?_
  exact Tile.recon_step (iblk m c 0 t) (iblk m c 1 t) (prev m c t).2.2.1 _

/-- and every lane of the second output block the second total. -/
theorem stepC_out_cluster (c : Dev nD) (t : Fin cfg0.N) (h0 : ¬t.val % 4 = 0) (h1 : t.val % 4 = 3)
    (hsq : ∀ k : Fin 256, (prev m c t).2.2.2.2 (ix2 (0 : Fin 1) k) = ∑ j : Fin 128, Blocks.R m c (ix2 k j) * Blocks.R m c (ix2 k j))
    (y : S1x1x128.Idx) :
    (outsAt0 m c t.val t.isLt).2.1 y = (prev m c t).2.2.2.1 (ix2 (0 : Fin 1) (0 : Fin 1)) + clusterT m c t := by
  refine (congrArg (fun p => p.2.1 y) (outsAt0_C m c t h0 h1)).trans ?_
  dsimp only
  refine (congrFun (Pieces.last_out_cluster (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (prev m c t).2.2.1 (prev m c t).2.2.2.1 (prev m c t).2.2.2.2) y).trans ?_
  refine (Tile.spread3 _ y).trans ?_
  have e := Blocks.r_block m c t
  refine (Cluster.cluster_step (iblk m c 2 t) (iblk m c 3 t) (prev m c t).2.2.2.2 (prev m c t).2.2.2.1 (fun k => (hsq k).trans (by rw [e])) _).trans ?_
  exact congrArg (fun r => (prev m c t).2.2.2.1 _ + Spec.clusterSum (M := 2048) (iblk m c 2 t) r) e

/-! ## All points -/

/-- The tile sums by point number (zero past the grid). -/
def reconAt (c : Dev nD) (n : ℕ) : EReal := if h : n < cfg0.N then reconT m c ⟨n, h⟩ else 0
def clusterAt (c : Dev nD) (n : ℕ) : EReal := if h : n < cfg0.N then clusterT m c ⟨n, h⟩ else 0

theorem reconAt_of_lt (c : Dev nD) (n : ℕ) (h : n < cfg0.N) : reconAt m c n = reconT m c ⟨n, h⟩ := dif_pos h
theorem clusterAt_of_lt (c : Dev nD) (n : ℕ) (h : n < cfg0.N) : clusterAt m c n = clusterT m c ⟨n, h⟩ := dif_pos h

/-- The sum over a core's points up to its first point is that point's term. -/
theorem sum_first (f : ℕ → EReal) (n : ℕ) (h0 : n % 4 = 0) :
    ∑ j ∈ Finset.range (n % 4 + 1), f (4 * (n / 4) + j) = f n := by
  rw [h0, zero_add, Finset.sum_range_one, add_zero]
  exact congrArg f (by omega)

/-- The sum over a core's points up to a later point is the sum up to the point before plus that point's term. -/
theorem sum_next (f : ℕ → EReal) (n : ℕ) (h0 : ¬(n + 1) % 4 = 0) :
    ∑ j ∈ Finset.range ((n + 1) % 4 + 1), f (4 * ((n + 1) / 4) + j)
      = (∑ j ∈ Finset.range (n % 4 + 1), f (4 * (n / 4) + j)) + f (n + 1) := by
  have e1 : (n + 1) % 4 = n % 4 + 1 := by omega
  have e2 : (n + 1) / 4 = n / 4 := by omega
  rw [e1, e2, Finset.sum_range_succ]
  exact congrArg (_ + f ·) (by omega)

/-- What the two running totals and the row of squared norms hold after point `n`. -/
structure Inv (c : Dev nD) (n : ℕ) (hn : n < cfg0.N) : Prop where
  recon : ∀ y : S1x1.Idx, (outsAt0 m c n hn).2.2.1 y = ∑ j ∈ Finset.range (n % 4 + 1), reconAt m c (4 * (n / 4) + j)
  cluster : ∀ y : S1x1.Idx, (outsAt0 m c n hn).2.2.2.1 y = ∑ j ∈ Finset.range (n % 4 + 1), clusterAt m c (4 * (n / 4) + j)
  sqnorm : ∀ k : Fin 256, (outsAt0 m c n hn).2.2.2.2 (ix2 (0 : Fin 1) k) = ∑ j : Fin 128, Blocks.R m c (ix2 k j) * Blocks.R m c (ix2 k j)

/-- By induction on the point: a first point starts the sums, every other point extends them by its own tile. -/
theorem inv (c : Dev nD) : ∀ (n : ℕ) (hn : n < cfg0.N), Inv m c n hn
  | 0, hn => by
    refine ⟨fun y => ?_, fun y => ?_, fun k => ?_⟩
    · refine (stepA_recon m c ⟨0, hn⟩ rfl (fun h : (0 : ℕ) % 4 = 3 => absurd h (by decide)) y).trans ?_
      rw [sum_first _ 0 rfl, reconAt_of_lt m c 0 hn]
    · refine (stepA_cluster m c ⟨0, hn⟩ rfl (fun h : (0 : ℕ) % 4 = 3 => absurd h (by decide)) y).trans ?_
      rw [sum_first _ 0 rfl, clusterAt_of_lt m c 0 hn]
    · exact stepA_sqnorm m c ⟨0, hn⟩ rfl (fun h : (0 : ℕ) % 4 = 3 => absurd h (by decide)) k
  | n + 1, hn => by
    have ih := inv c n (Nat.lt_of_succ_lt hn)
    by_cases h0 : (n + 1) % 4 = 0
    · have h1 : ¬(n + 1) % 4 = 3 := by omega
      refine ⟨fun y => ?_, fun y => ?_, fun k => ?_⟩
      · refine (stepA_recon m c ⟨n + 1, hn⟩ h0 h1 y).trans ?_
        rw [sum_first _ (n + 1) h0, reconAt_of_lt m c (n + 1) hn]
      · refine (stepA_cluster m c ⟨n + 1, hn⟩ h0 h1 y).trans ?_
        rw [sum_first _ (n + 1) h0, clusterAt_of_lt m c (n + 1) hn]
      · exact stepA_sqnorm m c ⟨n + 1, hn⟩ h0 h1 k
    · by_cases h1 : (n + 1) % 4 = 3
      · refine ⟨fun y => ?_, fun y => ?_, fun k => ?_⟩
        · refine (stepC_recon m c ⟨n + 1, hn⟩ h0 h1 y).trans ?_
          rw [sum_next _ n h0, reconAt_of_lt m c (n + 1) hn]
          exact congrArg (· + reconT m c ⟨n + 1, hn⟩) (ih.recon y)
        · refine (stepC_cluster m c ⟨n + 1, hn⟩ h0 h1 ih.sqnorm y).trans ?_
          rw [sum_next _ n h0, clusterAt_of_lt m c (n + 1) hn]
          exact congrArg (· + clusterT m c ⟨n + 1, hn⟩) (ih.cluster y)
        · exact (congrFun (stepC_sqnorm m c ⟨n + 1, hn⟩ h0 h1) _).trans (ih.sqnorm k)
      · refine ⟨fun y => ?_, fun y => ?_, fun k => ?_⟩
        · refine (stepB_recon m c ⟨n + 1, hn⟩ h0 h1 y).trans ?_
          rw [sum_next _ n h0, reconAt_of_lt m c (n + 1) hn]
          exact congrArg (· + reconT m c ⟨n + 1, hn⟩) (ih.recon y)
        · refine (stepB_cluster m c ⟨n + 1, hn⟩ h0 h1 ih.sqnorm y).trans ?_
          rw [sum_next _ n h0, clusterAt_of_lt m c (n + 1) hn]
          exact congrArg (· + clusterT m c ⟨n + 1, hn⟩) (ih.cluster y)
        · exact (congrFun (stepB_sqnorm m c ⟨n + 1, hn⟩ h0 h1) _).trans (ih.sqnorm k)

/-- A core's totals: the sums of its four points' tile sums. -/
def coreRecon (c : Dev nD) (q : ℕ) : EReal := ∑ j ∈ Finset.range 4, reconAt m c (4 * q + j)
def coreCluster (c : Dev nD) (q : ℕ) : EReal := ∑ j ∈ Finset.range 4, clusterAt m c (4 * q + j)

/-- At a core's last point every lane of the first output block holds the core's reconstruction total, -/
theorem out_recon (c : Dev nD) (t : Fin cfg0.N) (h1 : t.val % 4 = 3) (y : S1x1x128.Idx) :
    (outsAt0 m c t.val t.isLt).1 y = coreRecon m c (t.val / 4) := by
  obtain ⟨n, hn⟩ := t
  cases n with
  | zero => exact absurd (show (0 : ℕ) % 4 = 3 from h1) (by decide)
  | succ n =>
    have h0 : ¬(n + 1) % 4 = 0 := by have : (n + 1) % 4 = 3 := h1; omega
    have ih := inv m c n (Nat.lt_of_succ_lt hn)
    refine (stepC_out_recon m c ⟨n + 1, hn⟩ h0 h1 y).trans ?_
    have e := sum_next (reconAt m c) n h0
    rw [show (n + 1) % 4 = 3 from h1, reconAt_of_lt m c (n + 1) hn] at e
    exact (congrArg (· + reconT m c ⟨n + 1, hn⟩) (ih.recon _)).trans e.symm

/-- and every lane of the second output block the core's clustering total. -/
theorem out_cluster (c : Dev nD) (t : Fin cfg0.N) (h1 : t.val % 4 = 3) (y : S1x1x128.Idx) :
    (outsAt0 m c t.val t.isLt).2.1 y = coreCluster m c (t.val / 4) := by
  obtain ⟨n, hn⟩ := t
  cases n with
  | zero => exact absurd (show (0 : ℕ) % 4 = 3 from h1) (by decide)
  | succ n =>
    have h0 : ¬(n + 1) % 4 = 0 := by have : (n + 1) % 4 = 3 := h1; omega
    have ih := inv m c n (Nat.lt_of_succ_lt hn)
    refine (stepC_out_cluster m c ⟨n + 1, hn⟩ h0 h1 ih.sqnorm y).trans ?_
    have e := sum_next (clusterAt m c) n h0
    rw [show (n + 1) % 4 = 3 from h1, clusterAt_of_lt m c (n + 1) hn] at e
    exact (congrArg (· + clusterT m c ⟨n + 1, hn⟩) (ih.cluster _)).trans e.symm

end Cert.Totals

end
-- ==== Proof.Outputs.lean ====
/-
  The two arrays of per-core totals after the grid has run.

  Each is 2 x 1 x 128: core q's block is (q, 0, all lanes). A core's block is written back once, after the core's last
  point (point 4 q + 3), when every lane of the staging block holds the core's total; the two blocks cover the array. So
  after the run entry (q, 0, lane) of the first array is core q's reconstruction total and of the second its
  clustering total, whatever the lane.
-/
import proofs.«169356_j10153302688165_2_alg».proof.Proof.Gen.KernelIdeal.Frame
import proofs.«169356_j10153302688165_2_alg».proof.Proof.Totals
import Idealize.ShloMosaic.Lib.Pipeline.Value

noncomputable section

namespace Cert.Outputs

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-- The block indices of the two output windows: the core, and zero on the other axes. -/
theorem idx4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem idx5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)

/-- Each core's block is some last point's. -/
theorem onto4 : ∀ q : Fin 2, ∃ t : Fin cfg0.N, t.val % 4 = 3 ∧ win0_4.index t = ![q.val, 0, 0] :=
  (by decide +kernel : ∀ q : Fin 2, ∃ t : Fin grid0.N, t.val % 4 = 3 ∧ win0_4.index t = ![q.val, 0, 0])
theorem onto5 : ∀ q : Fin 2, ∃ t : Fin cfg0.N, t.val % 4 = 3 ∧ win0_5.index t = ![q.val, 0, 0] :=
  (by decide +kernel : ∀ q : Fin 2, ∃ t : Fin grid0.N, t.val % 4 = 3 ∧ win0_5.index t = ![q.val, 0, 0])

/-- The array of reconstruction totals: entry (q, 0, lane) is core q's total. -/
abbrev G4 (c : Dev nD) : S2x1x128.Idx → EReal := fun i => Totals.coreRecon m c (i 0).val

/-- What a core's last point writes back is that core's block of the array of totals. -/
theorem flushed4_eq (c : Dev nD) (t : Fin cfg0.N) (hf : (cfg0.win 4).flush t = true) :
    (dats m 0 c).flushed 4 t = ((cfg0.win 4).blk t).view.read (Elt Ideal) (G4 m c) := by
  have h1 : t.val % 4 = 3 := (flush0_4 t).mp hf
  show (cfg0.win 4).cut (grid0.coords t) ((dats m 0 c).after 4 t) = _
  rw [after0_4]
  funext j
  refine (Totals.out_recon m c t h1 _).trans ?_
  rw [View.read_apply]
  show Totals.coreRecon m c (t.val / 4) = Totals.coreRecon m c ((((cfg0.win 4).blk t).view.emb j) 0).val
  refine congrArg (Totals.coreRecon m c) ?_
  show t.val / 4 = win0_4.index t 0 * 1 + 1 * (j 0).val
  have hj : (j 0).val < 1 := (j 0).isLt
  have := (idx4 t).1
  omega

/-- An index of the array is in point `t`'s block iff each coordinate is in the block's range on its axis. -/
theorem mem_blk4 (t : Fin cfg0.N) (i : S2x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_0).slice (win0_4.rect t)).set ↔ _
  rw [View.set_slice_whole, Rect.mem_set_unit]
  exact Iff.rfl

/-- Every entry of the array lies in the block some core's last point writes back. -/
theorem cover4 (i : S2x1x128.Idx) : ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 128 := (i 2).isLt
  obtain ⟨t, ht3, ht⟩ := onto4 ⟨(i 0).val, hi0⟩
  have q0 : win0_4.index t (0 : Fin 3) = (i 0).val := congrFun ht 0
  have q1 : win0_4.index t (1 : Fin 3) = 0 := congrFun ht 1
  have q2 : win0_4.index t (2 : Fin 3) = 0 := congrFun ht 2
  refine ⟨t, (flush0_4 t).mpr ht3, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 128 ≤ (i 2).val ∧ (i 2).val < win0_4.index t (2 : Fin 3) * 128 + 128; omega

/-- The array after the run. -/
theorem final4 (c : Dev nD) : (dats m 0 c).arrAt 4 cfg0.N = G4 m c :=
  (dats m 0 c).arrAt_eq_of_cover 4 (G4 m c) (flushed4_eq m c) cover4

/-- The array of clustering totals: entry (q, 0, lane) is core q's total. -/
abbrev G5 (c : Dev nD) : S2x1x128.Idx → EReal := fun i => Totals.coreCluster m c (i 0).val

/-- What a core's last point writes back is that core's block of the array of totals. -/
theorem flushed5_eq (c : Dev nD) (t : Fin cfg0.N) (hf : (cfg0.win 5).flush t = true) :
    (dats m 0 c).flushed 5 t = ((cfg0.win 5).blk t).view.read (Elt Ideal) (G5 m c) := by
  have h1 : t.val % 4 = 3 := (flush0_5 t).mp hf
  show (cfg0.win 5).cut (grid0.coords t) ((dats m 0 c).after 5 t) = _
  rw [after0_5]
  funext j
  refine (Totals.out_cluster m c t h1 _).trans ?_
  rw [View.read_apply]
  show Totals.coreCluster m c (t.val / 4) = Totals.coreCluster m c ((((cfg0.win 5).blk t).view.emb j) 0).val
  refine congrArg (Totals.coreCluster m c) ?_
  show t.val / 4 = win0_5.index t 0 * 1 + 1 * (j 0).val
  have hj : (j 0).val < 1 := (j 0).isLt
  have := (idx5 t).1
  omega

/-- An index of the array is in point `t`'s block iff each coordinate is in the block's range on its axis. -/
theorem mem_blk5 (t : Fin cfg0.N) (i : S2x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v0_1).slice (win0_5.rect t)).set ↔ _
  rw [View.set_slice_whole, Rect.mem_set_unit]
  exact Iff.rfl

/-- Every entry of the array lies in the block some core's last point writes back. -/
theorem cover5 (i : S2x1x128.Idx) : ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 128 := (i 2).isLt
  obtain ⟨t, ht3, ht⟩ := onto5 ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, (flush0_5 t).mpr ht3, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 128 ≤ (i 2).val ∧ (i 2).val < win0_5.index t (2 : Fin 3) * 128 + 128; omega

/-- The array after the run. -/
theorem final5 (c : Dev nD) : (dats m 0 c).arrAt 5 cfg0.N = G5 m c :=
  (dats m 0 c).arrAt_eq_of_cover 5 (G5 m c) (flushed5_eq m c) cover5

end Cert.Outputs

end
-- ==== Proof.KernelValue.lean ====
/-
  The value the kernel's program ends with.

  After the grid, the program takes lane 0 of each core's block of the two arrays of totals, adds the two cores' totals,
  divides the reconstruction total by 2^24 and the clustering total by 2^21, and adds the first to 1 times the second.
  The sum over the two cores of the sums over each core's four points is the sum over the eight points; point t's tile
  is rows 2048 t .. 2048 t + 2047 of the arrays, and the eight tiles' sums add up to the sums over all 16384 samples
  (addition of extended reals is commutative and associative, so no finiteness is involved). Hence the result is the loss.
-/
import proofs.«169356_j10153302688165_2_alg».proof.Proof.Gen.KernelIdeal.Frame
import proofs.«169356_j10153302688165_2_alg».proof.Proof.Outputs
import Idealize.ShloMosaic.Lib.Pipeline.Value
import Idealize.ShloMosaic.Lib.StableHlo.Run
import Idealize.ShloMosaic.Lib.Tactic

noncomputable section

namespace Cert.KernelValue

open Idealize.ShloMosaic Idealize.ShloMosaic.TcCoe Idealize.ShloMosaic.ValueIdx Idealize.SL.Sem Cert.KernelIdeal Cert.KernelIdeal.Gen
open Idealize.ShloMosaic.StableHlo
open Idealize.ShloMosaic.Pipeline (Dat)
open scoped BigOperators

variable (m : (ℓ : Loc nD τ sig) → Buf (Elt Ideal) ℓ) (ρ : Dev nD → PrngReg)

/-! ## The operations after the grid -/

/-- The operations after the grid, as one function of the two arrays of totals. -/
def tail (o4 o5 : (⟨S2x1x128, .f32⟩ : BufTy).Contents (Elt Ideal)) : (⟨S_, .f32⟩ : BufTy).Contents (Elt Ideal) :=
  addf
    (Host.divf (F := Ideal)
      (Host.reduceAdd (F := Ideal) (shapeCast S2 (extractStridedSlice S2x1x1 ![0, 0, 0] o4 slices_S2x1x128_S2x1x1_0_0_0) shapeCasts_S2x1x1_S2)
        (constant (F := Ideal) S_ .f32 0x00000000#32) reducesTo_S2_S_d0 h_S_)
      (constant (F := Ideal) S_ .f32 0x4B800000#32))
    (mulf (constant (F := Ideal) S_ .f32 0x3F800000#32)
      (Host.divf (F := Ideal)
        (Host.reduceAdd (F := Ideal) (shapeCast S2 (extractStridedSlice S2x1x1 ![0, 0, 0] o5 slices_S2x1x128_S2x1x1_0_0_0) shapeCasts_S2x1x1_S2)
          (constant (F := Ideal) S_ .f32 0x00000000#32) reducesTo_S2_S_d0 h_S_)
        (constant (F := Ideal) S_ .f32 0x4A000000#32)))

/-- The program's result is these operations applied to the two arrays as the grid leaves them. -/
theorem after_tail (c : Dev nD) :
    Pipeline.afterTail₀ cfgs (dats m) 0 (V0 m) [hostOps1] c main_v10
      = tail (Pipeline.withArrays (cfgs 0).spec c (V0 m c) (fun w => (dats m 0 c).arrAt w (cfgs 0).N) (Proc.devRef .tc main_v0_0))
             (Pipeline.withArrays (cfgs 0).spec c (V0 m c) (fun w => (dats m 0 c).arrAt w (cfgs 0).N) (Proc.devRef .tc main_v0_1)) := by
  unfold Pipeline.afterTail₀
  show StableHlo.after hostOps1 _ (Proc.devRef .tc main_v10) = _
  after_results
  rfl

/-- The grid leaves the two arrays of totals. -/
theorem arr4 (c : Dev nD) :
    Pipeline.withArrays (cfgs 0).spec c (V0 m c) (fun w => (dats m 0 c).arrAt w (cfgs 0).N) (Proc.devRef .tc main_v0_0) = Outputs.G4 m c :=
  (Pipeline.withArrays_arr spec0 launch0.win.arr_inj c _ _ 4).trans (Outputs.final4 m c)
theorem arr5 (c : Dev nD) :
    Pipeline.withArrays (cfgs 0).spec c (V0 m c) (fun w => (dats m 0 c).arrAt w (cfgs 0).N) (Proc.devRef .tc main_v0_1) = Outputs.G5 m c :=
  (Pipeline.withArrays_arr spec0 launch0.win.arr_inj c _ _ 5).trans (Outputs.final5 m c)

/-! ## The tail of the totals is the loss -/

/-- A sum over the indices of a vector is the sum over its coordinate. -/
theorem sum_idx1 {M : Type*} [AddCommMonoid M] {n : ℕ} (f : (⟨1, ![n]⟩ : Shape).Idx → M) :
    ∑ i, f i = ∑ a : Fin n, f (ix1 a) :=
  Fintype.sum_equiv ⟨fun i => (i 0 : Fin n), fun a => ix1 a, fun i => (eq_ix1 i).symm, fun _ => rfl⟩ f (fun a => f (ix1 a))
    (fun i => congrArg f (eq_ix1 i))

/-- The sum of a two-entry vector from the zero: its two entries added. -/
theorem hostSum (y : FVec Ideal S2 .f32) (i : S_.Idx) :
    Host.reduceAdd (F := Ideal) y (constant (F := Ideal) S_ .f32 0x00000000#32) reducesTo_S2_S_d0 h_S_ i = ∑ q : Fin 2, y (ix1 q) := by
  simp only [Host.reduceAdd, Ideal.hostReduceAdd_def]
  refine (Ideal.hostReduceAdd_total reducesTo_S2_S_d0 (fun b => b.elim0) y _ i).trans ?_
  rw [sum_idx1]
  show Ideal.ofBits .f32 0x00000000#32 + _ = _
  rw [Ideal.ofBits_zero_f32, zero_add]

/-- Lane 0 of core q's block, through the slice and the reshape. -/
theorem lane0 (G : S2x1x128.Idx → EReal) (q : Fin 2) :
    shapeCast S2 (extractStridedSlice S2x1x1 ![0, 0, 0] G slices_S2x1x128_S2x1x1_0_0_0) shapeCasts_S2x1x1_S2 (ix1 q)
      = G (ix3 q (0 : Fin 1) (0 : Fin 128)) := by
  refine (shapeCast_apply _ _ (ix1 q) (ix3 q (0 : Fin 1) (0 : Fin 1)) ?_).trans ?_
  · rw [Shape.rowMajor_val_three, Shape.rowMajor_val_one]
    show (q.val * 1 + 0) * 1 + 0 = q.val
    omega
  · unfold extractStridedSlice
    exact congrArg G (funext fun a => Fin.ext (by
      match a with
      | ⟨0, _⟩ => show 0 + q.val = q.val; omega
      | ⟨1, _⟩ => rfl
      | ⟨2, _⟩ => rfl))

theorem point_lt' (t : Fin 8) : t.val < cfg0.N := lt_of_lt_of_eq t.isLt (show (8 : ℕ) = cfg0.N from N_0.symm)

/-- The two cores' reconstruction totals add up to the sum over all samples. -/
theorem total_recon (c : Dev nD) :
    ∑ q : Fin 2, Totals.coreRecon m c q.val = Spec.reconSum (M := 16384) (Blocks.X m c) (Blocks.A m c) := by
  unfold Totals.coreRecon
  rw [Regroup.cores_points (Totals.reconAt m c), Regroup.recon_tiles]
  refine Finset.sum_congr rfl fun t _ => ?_
  rw [Totals.reconAt_of_lt m c t.val (point_lt' t)]
  show Spec.reconSum (M := 2048) (iblk m c 0 ⟨t.val, point_lt' t⟩ : Vec Ideal S2048x1024 .f32) (iblk m c 1 ⟨t.val, point_lt' t⟩ : Vec Ideal S2048x1024 .f32) = _
  exact congrArg₂ (Spec.reconSum (M := 2048)) (Blocks.x_block m c ⟨t.val, point_lt' t⟩) (Blocks.a_block m c ⟨t.val, point_lt' t⟩)

/-- The two cores' clustering totals likewise. -/
theorem total_cluster (c : Dev nD) :
    ∑ q : Fin 2, Totals.coreCluster m c q.val = Spec.clusterSum (M := 16384) (Blocks.H m c) (Blocks.R m c) := by
  unfold Totals.coreCluster
  rw [Regroup.cores_points (Totals.clusterAt m c), Regroup.cluster_tiles]
  refine Finset.sum_congr rfl fun t _ => ?_
  rw [Totals.clusterAt_of_lt m c t.val (point_lt' t)]
  show Spec.clusterSum (M := 2048) (iblk m c 2 ⟨t.val, point_lt' t⟩ : Vec Ideal S2048x128 .f32) (Blocks.R m c) = _
  exact congrArg (fun h => Spec.clusterSum (M := 2048) h (Blocks.R m c)) (Blocks.h_block m c ⟨t.val, point_lt' t⟩)

/-- The operations after the grid, applied to the arrays of totals, give the loss. -/
theorem tail_eq (c : Dev nD) (i : S_.Idx) :
    tail (Outputs.G4 m c) (Outputs.G5 m c) i = Spec.loss (Blocks.X m c) (Blocks.A m c) (Blocks.H m c) (Blocks.R m c) := by
  unfold tail Spec.loss
  show Ideal.div (Host.reduceAdd (F := Ideal) _ _ reducesTo_S2_S_d0 h_S_ i) (Ideal.ofBits .f32 0x4B800000#32)
      + Ideal.ofBits .f32 0x3F800000#32 * Ideal.div (Host.reduceAdd (F := Ideal) _ _ reducesTo_S2_S_d0 h_S_ i) (Ideal.ofBits .f32 0x4A000000#32) = _
  rw [hostSum, hostSum]
  simp only [lane0]
  rw [← total_recon, ← total_cluster]

/-! ## The run, read -/

theorem mem10 : main_v10 ∈ Pipeline.restRefs sig (cfgs 0).spec :=
  Pipeline.mem_restRefs_of main_v10 rfl (by decide)

/-- Every weakly fair execution of the program ends with the loss in its result and its arguments unchanged. -/
theorem run : θ_run defs (onTc (τ := τ) (main (F := Ideal))) ⟨m, fun _ => 0, ρ⟩ fun r => ∀ c : Dev nD,
      r.2.mem ((c.tc : Thread nD τ).loc main_v10) = (fun _ => Spec.loss (Blocks.X m c) (Blocks.A m c) (Blocks.H m c) (Blocks.R m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v10 mem10).trans (by
        rw [after_tail, arr4, arr5]
        exact funext fun i => tail_eq m c i),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).1 3).trans (((dats m 0 c).arrAt_in 3 rfl _).trans ((A_eq m c 3).trans (V_main_arg3 m c)))⟩)
    (run_main m ρ)

end Cert.KernelValue

end
-- ==== Proof.RefValue.lean ====
/-
  The reference program's result is the loss.

  Each array the reference computes is read at an index written with literal coordinates (sample n, centre k,
  latent coordinate q), and identified with the corresponding piece of the loss: the squared norms, the inner
  products, the clamped distance, the weight exp(-dist), the row sum of the weights, the soft assignment, the
  soft-assigned centre, the squared residual. The two total sums over a two-axis index set are then double sums
  over the coordinates, which is how the loss writes them.
-/
import proofs.«169356_j10153302688165_2_alg».proof.Proof.Gen.ReferenceIdeal.Read
import proofs.«169356_j10153302688165_2_alg».proof.Proof.Spec

noncomputable section

namespace Cert.RefValue

open Idealize.ShloMosaic Idealize.ShloMosaic.ValueIdx Cert.ReferenceIdeal Cert.ReferenceIdeal.Read
open scoped BigOperators

/-! ## The reconstruction term -/

/-- The squared difference of the two inputs at an index. -/
theorem v1_at (x0 x2 : (⟨S16384x1024, .f32⟩ : BufTy).Contents (Elt Ideal)) (j : S16384x1024.Idx) :
    val_main_v1 (F := Ideal) x0 x2 j = (x0 j - x2 j) * (x0 j - x2 j) := by
  rw [val_main_v1_apply, val_main_v0_apply]
  rfl

/-- The total of the squared differences is the double sum over samples and coordinates. -/
theorem v2_at (x0 x2 : (⟨S16384x1024, .f32⟩ : BufTy).Contents (Elt Ideal)) (i : S_.Idx) :
    val_main_v2 (F := Ideal) x0 x2 i = Cert.Spec.reconSum x0 x2 := by
  rw [val_main_v2_apply, val_main_cst_apply, Ideal.ofBits_def, Ideal.ofBits_zero_f32, zero_add, sum_idx2]
  unfold Cert.Spec.reconSum
  exact Finset.sum_congr rfl fun n _ => Finset.sum_congr rfl fun d _ => v1_at x0 x2 (ix2 n d)

/-! ## The clustering term -/

section Cluster

variable (x1 : (⟨S16384x128, .f32⟩ : BufTy).Contents (Elt Ideal)) (x3 : (⟨S256x128, .f32⟩ : BufTy).Contents (Elt Ideal))

/-- The squared norm of sample n's latent row. -/
theorem v5_at (n : Fin 16384) :
    val_main_v5 (F := Ideal) x1 (ix1 n) = ∑ j : Fin 128, x1 (ix2 n j) * x1 (ix2 n j) := by
  rw [val_main_v5_apply, val_main_cst_1_apply, Ideal.ofBits_def, Ideal.ofBits_zero_f32, zero_add]
  refine Finset.sum_congr rfl fun j _ => ?_
  have e : idx_main_v5 (ix1 n) j = ix2 n j :=
    funext fun a => Fin.ext (by match a with | ⟨0, _⟩ => rfl | ⟨1, _⟩ => rfl)
  rw [e, val_main_v4_apply]
  rfl

/-- The squared norm of centre k. -/
theorem v8_at (k : Fin 256) :
    val_main_v8 (F := Ideal) x3 (ix1 k) = ∑ j : Fin 128, x3 (ix2 k j) * x3 (ix2 k j) := by
  rw [val_main_v8_apply, val_main_cst_2_apply, Ideal.ofBits_def, Ideal.ofBits_zero_f32, zero_add]
  refine Finset.sum_congr rfl fun j _ => ?_
  have e : idx_main_v8 (ix1 k) j = ix2 k j :=
    funext fun a => Fin.ext (by match a with | ⟨0, _⟩ => rfl | ⟨1, _⟩ => rfl)
  rw [e, val_main_v7_apply]
  rfl

/-- The inner product of sample n's latent row with centre k. -/
theorem v13_at (n : Fin 16384) (k : Fin 256) :
    val_main_v13 (F := Ideal) x1 x3 (ix2 n k) = ∑ j : Fin 128, x1 (ix2 n j) * x3 (ix2 k j) := by
  rw [val_main_v13_apply]
  refine Finset.sum_congr rfl fun j _ => ?_
  have el : lidx_main_v13 (ix2 n k) j = ix2 n j :=
    funext fun a => Fin.ext (by match a with | ⟨0, _⟩ => rfl | ⟨1, _⟩ => rfl)
  have er : ridx_main_v13 (ix2 n k) j = ix2 k j :=
    funext fun a => Fin.ext (by match a with | ⟨0, _⟩ => rfl | ⟨1, _⟩ => rfl)
  rw [el, er]

/-- The squared norm of the sample's row, spread along the centres. -/
theorem v10_at (n : Fin 16384) (k : Fin 256) :
    val_main_v10 (F := Ideal) x1 (ix2 n k) = ∑ j : Fin 128, x1 (ix2 n j) * x1 (ix2 n j) := by
  have e : idx_main_v6 (idx_main_v10 (ix2 n k)) = ix1 n :=
    funext fun a => Fin.ext (by match a with | ⟨0, _⟩ => rfl)
  rw [val_main_v10_apply, val_main_v6_apply, e, v5_at]

/-- The squared norm of the centre, spread along the samples. -/
theorem v11_at (n : Fin 16384) (k : Fin 256) :
    val_main_v11 (F := Ideal) x3 (ix2 n k) = ∑ j : Fin 128, x3 (ix2 k j) * x3 (ix2 k j) := by
  have e : idx_main_v9 (idx_main_v11 (ix2 n k)) = ix1 k :=
    funext fun a => Fin.ext (by match a with | ⟨0, _⟩ => rfl)
  rw [val_main_v11_apply, val_main_v9_apply, e, v8_at]

/-- The clamped distance from sample n's latent row to centre k. -/
theorem v19_at (n : Fin 16384) (k : Fin 256) :
    val_main_v19 (F := Ideal) x1 x3 (ix2 n k) = Cert.Spec.dist (Cert.Spec.rowOf x1 n) (Cert.Spec.centres x3) k := by
  rw [val_main_v19_apply, val_main_v18_apply, val_main_v17_apply, val_main_cst_4_apply, val_main_v16_apply,
    val_main_v15_apply, val_main_v14_apply, val_main_cst_3_apply, val_main_v12_apply, v10_at, v11_at, v13_at]
  simp only [Ideal.ofBits_def, Ideal.ofBits_zero_f32, Ideal.addf_def, Ideal.subf_def, Ideal.mulf_def, Ideal.maximumf_def,
    Ideal.hostUnary_sqrt_def]
  rfl

/-- The unnormalised weight exp(-dist). -/
theorem v22_at (n : Fin 16384) (k : Fin 256) :
    val_main_v22 (F := Ideal) x1 x3 (ix2 n k) = Cert.Spec.weight (Cert.Spec.rowOf x1 n) (Cert.Spec.centres x3) k := by
  rw [val_main_v22_apply, val_main_v21_apply, val_main_v20_apply, val_main_cst_5_apply, v19_at]
  simp only [Ideal.ofBits_def, Ideal.mulf_def, Ideal.hostUnary_exp_def]
  rfl

/-- The sum of sample n's weights over the centres. -/
theorem v23_at (n : Fin 16384) :
    val_main_v23 (F := Ideal) x1 x3 (ix1 n)
      = ∑ k : Fin 256, Cert.Spec.weight (Cert.Spec.rowOf x1 n) (Cert.Spec.centres x3) k := by
  rw [val_main_v23_apply, val_main_cst_6_apply, Ideal.ofBits_def, Ideal.ofBits_zero_f32, zero_add]
  refine Finset.sum_congr rfl fun k _ => ?_
  have e : idx_main_v23 (ix1 n) k = ix2 n k :=
    funext fun a => Fin.ext (by match a with | ⟨0, _⟩ => rfl | ⟨1, _⟩ => rfl)
  rw [e, v22_at]

/-- The normaliser of sample n: the sum of its weights plus eps, spread along the centres. -/
theorem v27_at (n : Fin 16384) (k : Fin 256) :
    val_main_v27 (F := Ideal) x1 x3 (ix2 n k)
      = (∑ k' : Fin 256, Cert.Spec.weight (Cert.Spec.rowOf x1 n) (Cert.Spec.centres x3) k')
        + Ideal.ofBits .f32 0x322BCC77#32 := by
  have e : idx_main_v24 (idx_main_v27 (ix2 n k)) = ix1 n :=
    funext fun a => Fin.ext (by match a with | ⟨0, _⟩ => rfl)
  rw [val_main_v27_apply, val_main_v26_apply, val_main_v25_apply, val_main_cst_7_apply, val_main_v24_apply, e, v23_at]
  rfl

/-- The soft assignment of sample n to centre k. -/
theorem v28_at (n : Fin 16384) (k : Fin 256) :
    val_main_v28 (F := Ideal) x1 x3 (ix2 n k) = Cert.Spec.soft (Cert.Spec.rowOf x1 n) (Cert.Spec.centres x3) k := by
  rw [val_main_v28_apply, v22_at, v27_at]
  rfl

/-- The soft-assigned centre of sample n at latent coordinate q. -/
theorem v29_at (n : Fin 16384) (q : Fin 128) :
    val_main_v29 (F := Ideal) x1 x3 (ix2 n q)
      = ∑ k : Fin 256, Cert.Spec.soft (Cert.Spec.rowOf x1 n) (Cert.Spec.centres x3) k * x3 (ix2 k q) := by
  rw [val_main_v29_apply]
  refine Finset.sum_congr rfl fun k _ => ?_
  have el : lidx_main_v29 (ix2 n q) k = ix2 n k :=
    funext fun a => Fin.ext (by match a with | ⟨0, _⟩ => rfl | ⟨1, _⟩ => rfl)
  have er : ridx_main_v29 (ix2 n q) k = ix2 k q :=
    funext fun a => Fin.ext (by match a with | ⟨0, _⟩ => rfl | ⟨1, _⟩ => rfl)
  rw [el, er, v28_at]

/-- The squared residual of sample n at latent coordinate q. -/
theorem v31_at (n : Fin 16384) (q : Fin 128) :
    val_main_v31 (F := Ideal) x1 x3 (ix2 n q) = Cert.Spec.resid (Cert.Spec.rowOf x1 n) (Cert.Spec.centres x3) q := by
  rw [val_main_v31_apply, val_main_v30_apply, v29_at]
  rfl

/-- The total of the squared residuals is the double sum over samples and latent coordinates. -/
theorem v32_at (i : S_.Idx) :
    val_main_v32 (F := Ideal) x1 x3 i = Cert.Spec.clusterSum x1 x3 := by
  rw [val_main_v32_apply, val_main_cst_8_apply, Ideal.ofBits_def, Ideal.ofBits_zero_f32, zero_add, sum_idx2]
  unfold Cert.Spec.clusterSum
  exact Finset.sum_congr rfl fun n _ => Finset.sum_congr rfl fun q _ => v31_at x1 x3 n q

end Cluster

/-! ## The result -/

/-- The reference's result, at the extended reals, is the loss. -/
theorem ref_eq (x0 : (⟨S16384x1024, .f32⟩ : BufTy).Contents (Elt Ideal)) (x1 : (⟨S16384x128, .f32⟩ : BufTy).Contents (Elt Ideal))
    (x2 : (⟨S16384x1024, .f32⟩ : BufTy).Contents (Elt Ideal)) (x3 : (⟨S256x128, .f32⟩ : BufTy).Contents (Elt Ideal)) (i : S_.Idx) :
    val_main_v35 (F := Ideal) x0 x1 x2 x3 i = Cert.Spec.loss x0 x2 x1 x3 := by
  rw [val_main_v35_apply, val_main_v34_apply, val_main_cst_10_apply, val_main_v33_apply, val_main_cst_9_apply,
    val_main_v3_apply, val_main_cst_0_apply, v2_at, v32_at]
  rfl

end Cert.RefValue

end
-- ==== Proof.lean ====
/-
  The kernel and the reference compute one loss.

  For 16384 samples with inputs x, a (16384 x 1024), latent codes h (16384 x 128) and 256 cluster centres R (256 x 128),
  both programs end with

      ( sum_(n,d) (x(n,d) - a(n,d))^2 ) / 2^24  +  1 * ( sum_(n,q) (h(n,q) - sum_k s(n,k) R(k,q))^2 ) / 2^21,

  s(n,.) the soft assignment of sample n: exp(-dist) over its sum plus eps, dist(n,k) = sqrt(max(|h_n|^2 + |R_k|^2 - 2<h_n,R_k>, 0)).
  The reference takes each sum over all samples at once. The kernel walks the samples in eight tiles of 2048 rows, four
  tiles per core; each core keeps two running totals, adds each tile's two sums to them, and hands its totals out after its
  last tile; the two cores' totals are then added and scaled. A sample's residual depends only on its own row of h and on
  all of R, so a tile's sums are the restriction of the whole sums to its rows, and since addition of extended reals is
  commutative and associative the tile-by-tile, core-by-core totals are the whole sums: no finiteness of the inputs is used.
  The three frame claims are the generated frame of each kernel program and the reference's generated run; the ideal
  pass rewrote nothing, so the idealization claim is trivial.
-/
import proofs.«169356_j10153302688165_2_alg».proof.Defs
import proofs.«169356_j10153302688165_2_alg».proof.Proof.Gen.Kernel
import proofs.«169356_j10153302688165_2_alg».proof.Proof.Gen.Kernel.Skeleton
import proofs.«169356_j10153302688165_2_alg».proof.Proof.Gen.Kernel.Launch
import proofs.«169356_j10153302688165_2_alg».proof.Proof.Gen.Kernel.Points
import proofs.«169356_j10153302688165_2_alg».proof.Proof.Gen.Kernel.Frame
import proofs.«169356_j10153302688165_2_alg».proof.Proof.Gen.KernelIdeal
import proofs.«169356_j10153302688165_2_alg».proof.Proof.Gen.KernelIdeal.Skeleton
import proofs.«169356_j10153302688165_2_alg».proof.Proof.Gen.KernelIdeal.Launch
import proofs.«169356_j10153302688165_2_alg».proof.Proof.Gen.KernelIdeal.Points
import proofs.«169356_j10153302688165_2_alg».proof.Proof.Gen.KernelIdeal.Frame
import proofs.«169356_j10153302688165_2_alg».proof.Proof.Gen.ReferenceIdeal
import proofs.«169356_j10153302688165_2_alg».proof.Proof.Gen.ReferenceIdeal.Run
import proofs.«169356_j10153302688165_2_alg».proof.Proof.Gen.ReferenceIdeal.Read
import proofs.«169356_j10153302688165_2_alg».proof.Proof.Gen.Pre_finite_inputs
import proofs.«169356_j10153302688165_2_alg».proof.Proof.KernelValue
import proofs.«169356_j10153302688165_2_alg».proof.Proof.RefValue
import Idealize.ShloMosaic.Adequacy
import Idealize.ShloMosaic.Init

noncomputable section

namespace Cert.Proof

open Idealize.ShloMosaic Idealize.SL.Sem

/-- Each kernel program runs and leaves its arguments unchanged: the generated frame. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- On the extended reals both programs end with the loss of arguments that agree. -/
theorem algebraic : Cert.algebraic_KernelIdeal_ReferenceIdeal := by
  intro m ρ m' ρ' _ hagree
  refine ⟨fun c => (fun _ => Cert.Spec.loss (Cert.Blocks.X m c) (Cert.Blocks.A m c) (Cert.Blocks.H m c) (Cert.Blocks.R m c)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2]
  exact funext fun i => Cert.RefValue.ref_eq _ _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
